-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128x128 .f32) (main_arg3 : FVec F S128 .f32) (main_arg4 : FVec F S128 .f32) (main_arg5 : IVec S600000 32) (main_arg6 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S2x128 : Shape := ⟨2, ![2, 128]⟩
abbrev S5000x128 : Shape := ⟨2, ![5000, 128]⟩
abbrev S1x128 : Shape := ⟨2, ![1, 128]⟩

abbrev nBuf : Space → Nat
  | .hbm => 49
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S2x128, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S2x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128, .f32⟩
  | .local _ .vmem, ⟨15, _⟩ => ⟨S2x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S5000x128_S128 : S5000x128.Reduces [0] S128
  shapeCasts_S128_S1x128 : S128.ShapeCasts S1x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  inb_S128_S128_0 : ∀ a, (![0] : Fin 1 → Nat) a + S128.size a ≤ S128.size a
  h_S128 : 0 < S128.numel
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_1) S2x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_1) S2x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S600000, .i32⟩
  | .hbm, ⟨6, _⟩ => ⟨S600000, .i32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_cst : Ref sig .tc := ⟨.hbm, 47, rfl⟩
abbrev main_call2_v0 : Ref sig .tc := ⟨.hbm, 48, rfl⟩
abbrev main_v28 : Ref sig .tc := ⟨.hbm, 49, rfl⟩
abbrev main_v29 : Ref sig .tc := ⟨.hbm, 50, rfl⟩
abbrev main_call3_cst : Ref sig .tc := ⟨.hbm, 51, rfl⟩
abbrev main_call3_v0 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Bits.Region0Data.lean ====
import proofs.«168652_j88974542504681_1_alg».proof.Proof.Gen.Kernel.Launch
import proofs.«168652_j88974542504681_1_alg».proof.Proof.Gen.Kernel.Skeleton
import proofs.«168652_j88974542504681_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics kernel over ten tiles: what each buffer holds after each tile

The first pallas_call visits ten tiles of 5000 rows. At tile `t` it stores the tile's activations (the skeleton's
payload `k0_pay4` of the tile's four input blocks) and adds the tile's column sums of the activations and of their
squares to two one-row accumulators that it keeps in scratch memory between tiles (`k0_pay5`, and `k0_pay1` of
`k0_pay6`); at the first tile the accumulators are cleared first (`k0_pay2`, `k0_pay3`); at the last tile both rows
are copied into the two-row statistics buffer, which is written back only there. Everything here is stated at a
parameter `V`, the contents of the TensorCore's buffers when the pallas_call is entered, and at any float instance. -/

variable (V : (c : Dev nD) → (b : Ref sig .tc) → Buf (Elt F) ((c : Thread nD τ).loc b))

/-- Window `w`'s block at tile `t`, read off its array as the pallas_call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations of tile `t`: the stored payload of the tile's four input blocks. -/
def tileAt (c : Dev nD) (t : Fin cfg0.N) : Vec F S5000x128 .f32 :=
  k0_pay4 (iblk0 V c 0 t) (iblk0 V c 1 t) (iblk0 V c 2 t) (iblk0 V c 3 t)

/-- The running column sums after tile `n`: cleared, then advanced once per tile. -/
def sumAt (c : Dev nD) : (n : ℕ) → n < cfg0.N → Vec F S1x128 .f32
  | 0, h => k0_pay5 (iblk0 V c 0 ⟨0, h⟩) (iblk0 V c 1 ⟨0, h⟩) (iblk0 V c 2 ⟨0, h⟩) (iblk0 V c 3 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩)
      (sumAt c n (Nat.lt_of_succ_lt h))

/-- The running column sums of squares after tile `n`. -/
def sqAt (c : Dev nD) : (n : ℕ) → n < cfg0.N → Vec F S1x128 .f32
  | 0, h => k0_pay1 (k0_pay6 (iblk0 V c 0 ⟨0, h⟩) (iblk0 V c 1 ⟨0, h⟩) (iblk0 V c 2 ⟨0, h⟩) (iblk0 V c 3 ⟨0, h⟩) (k0_pay3 (F := F)))
  | n + 1, h => k0_pay1 (k0_pay6 (iblk0 V c 0 ⟨n + 1, h⟩) (iblk0 V c 1 ⟨n + 1, h⟩) (iblk0 V c 2 ⟨n + 1, h⟩) (iblk0 V c 3 ⟨n + 1, h⟩)
      (sqAt c n (Nat.lt_of_succ_lt h)))

/-- The two rows of the statistics buffer: the sums in row 0, the sums of squares in row 1. -/
def statsOf (s q : Vec F S1x128 .f32) : Vec F S2x128 .f32 :=
  View.canon [⟨Rect.unit (s := S2x128) ![1, 0] S1x128.size inb_S2x128_S1x128_1_0, q⟩,
    ⟨Rect.unit (s := S2x128) ![0, 0] S1x128.size inb_S2x128_S1x128_0_0, s⟩]

/-- The two accumulators, as the whole scratch buffers the kernel is passed. -/
abbrev accSum : Memref sig .tc .vmem S1x128 .f32 := Memref.whole cc0_scratch0
abbrev accSq : Memref sig .tc .vmem S1x128 .f32 := Memref.whole cc0_scratch1

/-- The core's scoped buffers that this pallas_call neither stages through nor names: the second pallas_call's staging
    buffers, each whole at some contents. They ride through every tile untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- What the pallas_call keeps between tiles, before tile `n`: before the first tile the scoped buffers at anything and
    the generator register at some state; afterwards the two accumulators at what tile `n - 1` left in them, the other
    scoped buffers at anything, the generator register at some state. -/
def carried (c : Dev nD) : (n : ℕ) → n ≤ cfg0.N → sProp 𝕄
  | 0, _ => Pipeline.ΦA spec0 c
  | n + 1, hn => iprop(owns (c : Thread nD τ) accSum fullShare (sumAt V c n hn) ∗ owns (c : Thread nD τ) accSq fullShare (sqAt V c n hn)
      ∗ otherScoped (F := F) c ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(owns (c : Thread nD τ) accSum fullShare (sumAt V c n hn) ∗ owns (c : Thread nD τ) accSq fullShare (sqAt V c n hn)
      ∗ otherScoped (F := F) c ∗ (∃ r, prngReg c r)) := rfl

theorem carried_pos (c : Dev nD) (n : ℕ) (h : n ≤ cfg0.N) (hz : n ≠ 0) :
    carried V c n h = iprop(owns (c : Thread nD τ) accSum fullShare (sumAt V c (n - 1) (by omega)) ∗ owns (c : Thread nD τ) accSq fullShare (sqAt V c (n - 1) (by omega))
      ∗ otherScoped (F := F) c ∗ (∃ r, prngReg c r)) := by
  cases n with
  | zero => exact absurd rfl hz
  | succ n => rfl

/-- The proof data of the first pipeline on core `c`: its arrays as the pallas_call finds them; after tile `t` each input's
    buffer at its block, the activations' buffer at the tile's activations, the statistics buffer at the two accumulators'
    rows; between tiles what the kernel carries; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => tileAt V c t
    | ⟨5, _⟩ => statsOf (sumAt V c t.val t.isLt) (sqAt V c t.val t.isLt)
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = tileAt V c t := by dsimp only [dat0]
theorem after0_5 (c : Dev nD) (t : Fin cfg0.N) :
    (dat0 V c).after 5 t = statsOf (sumAt V c t.val t.isLt) (sqAt V c t.val t.isLt) := by dsimp only [dat0]

/-- The carried state at a tile's start, restated at the tile's number. -/
theorem carried_castSucc (c : Dev nD) (t : Fin cfg0.N) :
    (dat0 V c).Φ t.castSucc = carried V c t.val (Nat.le_of_lt t.isLt) := by
  dsimp only [dat0]; simp only [Fin.coe_castSucc]

end Cert.Kernel.Hand

end
-- ==== Proof.Bits.Region0Body.lean ====
import proofs.«168652_j88974542504681_1_alg».proof.Proof.Gen.Kernel.Launch
import proofs.«168652_j88974542504681_1_alg».proof.Proof.Gen.Kernel.Skeleton
import proofs.«168652_j88974542504681_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
import proofs.«168652_j88974542504681_1_alg».proof.Proof.Bits.Region0Data
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The statistics kernel: its body at every tile

The proof data of the first pallas_call (what each buffer holds after each tile) are stated in the module this one
imports. Here the kernel's body is run: once for a first tile, once for a tile in the middle, once for the last tile,
each time from whole staging buffers holding the tile's four input blocks and the two accumulators at given contents, to
the same buffers with the tile's activations stored and the accumulators advanced; then the three runs are put together
into the obligation the pipeline asks of the body at every tile. -/

/-! ## The body, case by case -/

abbrev isFirst (i : grid0.Coords) : Prop :=
  (Scalar.cmpi .ne (Scalar.extui (Scalar.cmpi .eq (BitVec.ofNat 32 (i 0).val) 0#32)) 0#32) = 1#1
abbrev isLast (i : grid0.Coords) : Prop := k0_cond2 i = 1#1

theorem off2_zero : (![0, 0] : Fin 2 → Nat) = fun _ => 0 := by
  funext a; fin_cases a <;> rfl

/-- The two row stores into the statistics buffer tile it, so they cover it (whatever is stored). -/
theorem cover_rows (p1 p0 : Vec F S1x128 .f32) (y : S2x128.Idx) :
    ∃ pc ∈ ([⟨Rect.unit (s := S2x128) ![1, 0] S1x128.size inb_S2x128_S1x128_1_0, p1⟩,
        ⟨Rect.unit (s := S2x128) ![0, 0] S1x128.size inb_S2x128_S1x128_0_0, p0⟩] : List (View.Piece (Elt F) S2x128 .f32)), y ∈ pc.1.set :=
  View.cover_of_tiled (s := S2x128)
    [⟨Rect.unit (s := S2x128) ![1, 0] S1x128.size inb_S2x128_S1x128_1_0, p1⟩,
      ⟨Rect.unit (s := S2x128) ![0, 0] S1x128.size inb_S2x128_S1x128_0_0, p0⟩] ![1, 128] (by rfl) y

/-- A buffer whose LAST store covered it whole reads back as that store's payload, whatever was stored before. -/
theorem read_whole_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h inb]

set_option maxHeartbeats 1000000 in
theorem body_mid (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
    (hF : ¬isFirst i) (hL : ¬isLast i)
    (x0 x1 : Vec F S5000x128 .f32) (x2 x3 : Vec F S128x128 .f32) (d6 : Vec F S2x128 .f32) (s q : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare d6
        ∗ owns (c : Thread nD τ) arg7 fullShare s ∗ owns (c : Thread nD τ) arg8 fullShare q
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay4 x0 x1 x2 x3) ∗ owns (c : Thread nD τ) arg6 fullShare d6
            ∗ owns (c : Thread nD τ) arg7 fullShare (k0_pay5 x0 x1 x2 x3 s)
            ∗ owns (c : Thread nD τ) arg8 fullShare (k0_pay1 (k0_pay6 x0 x1 x2 x3 q))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3
  obtain rfl := harg6.eq_unread hf6; obtain rfl := harg7.eq_unread hf7; obtain rfl := harg8.eq_unread hf8
  sl_exec (disch := first | exact hF | exact hL)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H6]
  · iexists _; isplitr; · ipureintro; exact harg6.read_unread _
    iexact H6
  isplitl [H7]
  · iexists _; isplitr
    swap; · iexact H7
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  iexists _; isplitr
  swap; · iexact H8
  ipureintro
  refine (read_whole_store _ _ off2_zero _ _ _).trans ?_
  sl_unfold_run_names
  simp only [View.readAt_eq_ld, harg1.read_unread, harg2.read_unread, harg3.read_unread, harg4.read_unread, harg7.read_unread, harg8.read_unread,
    View.ld_unit_zero (S := S5000x128) off2_zero, View.ld_unit_zero (S := S128x128) off2_zero, View.ld_unit_zero (S := S1x128) off2_zero,
    View.readCov_unit_zero (S := S1x128) _ off2_zero]

set_option maxHeartbeats 1000000 in
theorem body_first (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
    (hF : isFirst i) (hL : ¬isLast i)
    (x0 x1 : Vec F S5000x128 .f32) (x2 x3 : Vec F S128x128 .f32) (d6 : Vec F S2x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare d6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay4 x0 x1 x2 x3) ∗ owns (c : Thread nD τ) arg6 fullShare d6
            ∗ owns (c : Thread nD τ) arg7 fullShare (k0_pay5 x0 x1 x2 x3 (k0_pay2 (F := F)))
            ∗ owns (c : Thread nD τ) arg8 fullShare (k0_pay1 (k0_pay6 x0 x1 x2 x3 (k0_pay3 (F := F))))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3
  obtain rfl := harg6.eq_unread hf6
  sl_exec (disch := first | exact hF | exact hL)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H6]
  · iexists _; isplitr; · ipureintro; exact harg6.read_unread _
    iexact H6
  isplitl [H7]
  · iexists _; isplitr
    swap; · iexact H7
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  iexists _; isplitr
  swap; · iexact H8
  ipureintro
  refine (read_whole_store _ _ off2_zero _ _ _).trans ?_
  sl_unfold_run_names
  simp only [View.readAt_eq_ld, harg1.read_unread, harg2.read_unread, harg3.read_unread, harg4.read_unread, harg7.read_unread, harg8.read_unread,
    View.ld_unit_zero (S := S5000x128) off2_zero, View.ld_unit_zero (S := S128x128) off2_zero, View.ld_unit_zero (S := S1x128) off2_zero,
    View.readCov_unit_zero (S := S1x128) _ off2_zero]

set_option maxHeartbeats 1000000 in
theorem body_last (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
    (hF : ¬isFirst i) (hL : isLast i)
    (x0 x1 : Vec F S5000x128 .f32) (x2 x3 : Vec F S128x128 .f32) (s q : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s ∗ owns (c : Thread nD τ) arg8 fullShare q
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay4 x0 x1 x2 x3)
            ∗ owns (c : Thread nD τ) arg6 fullShare (statsOf (k0_pay5 x0 x1 x2 x3 s) (k0_pay1 (k0_pay6 x0 x1 x2 x3 q)))
            ∗ owns (c : Thread nD τ) arg7 fullShare (k0_pay5 x0 x1 x2 x3 s)
            ∗ owns (c : Thread nD τ) arg8 fullShare (k0_pay1 (k0_pay6 x0 x1 x2 x3 q))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3
  obtain rfl := harg7.eq_unread hf7; obtain rfl := harg8.eq_unread hf8
  sl_exec (disch := first | exact hF | exact hL)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H6]
  · iexists _; isplitr
    swap; · iexact H6
    ipureintro
    unfold statsOf
    refine (View.read_writes_eq_canon _ _ _ (cover_rows _ _)).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H7]
  · iexists _; isplitr
    swap; · iexact H7
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  iexists _; isplitr
  swap; · iexact H8
  ipureintro
  refine (read_whole_store _ _ off2_zero _ _ _).trans ?_
  sl_unfold_run_names
  simp only [View.readAt_eq_ld, harg1.read_unread, harg2.read_unread, harg3.read_unread, harg4.read_unread, harg7.read_unread, harg8.read_unread,
    View.ld_unit_zero (S := S5000x128) off2_zero, View.ld_unit_zero (S := S128x128) off2_zero, View.ld_unit_zero (S := S1x128) off2_zero,
    View.readCov_unit_zero (S := S1x128) _ off2_zero]

/-! ## The two tests over the grid, and where each window is live -/

variable (V : (c : Dev nD) → (b : Ref sig .tc) → Buf (Elt F) ((c : Thread nD τ).loc b))

/-- The first-tile test holds at tile 0 only; -/
theorem first_iff : ∀ t : Fin cfg0.N, isFirst (grid0.coords t) ↔ t.val = 0 :=
  (by decide +kernel : ∀ t : Fin grid0.N, isFirst (grid0.coords t) ↔ t.val = 0)
/-- the last-tile test at tile 9 only. -/
theorem last_iff : ∀ t : Fin cfg0.N, isLast (grid0.coords t) ↔ t.val = 9 :=
  (by decide +kernel : ∀ t : Fin grid0.N, isLast (grid0.coords t) ↔ t.val = 9)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The statistics window is idle, and not written back, at every tile but the last. -/
theorem idle0_5 : ∀ t : Fin cfg0.N, ¬isLast (grid0.coords t) → cfg0.idle 5 (grid0.coords t) = true := by decide +kernel
theorem noFlush0_5 : ∀ t : Fin cfg0.N, ¬isLast (grid0.coords t) → (cfg0.win 5).flush t = false := by decide +kernel
theorem live0_5 : ∀ t : Fin cfg0.N, isLast (grid0.coords t) → cfg0.idle 5 (grid0.coords t) = false := by decide +kernel

/-! ## Each input's staging buffer holds its block at every tile, fetched there or not -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The accumulators, one tile at a time -/

theorem sumAt_first (c : Dev nD) (t : Fin cfg0.N) (h : t.val = 0) :
    sumAt V c t.val t.isLt = k0_pay5 (iblk0 V c 0 t) (iblk0 V c 1 t) (iblk0 V c 2 t) (iblk0 V c 3 t) (k0_pay2 (F := F)) := by
  obtain ⟨n, hn⟩ := t
  cases n with
  | zero => rfl
  | succ n => exact absurd h (Nat.succ_ne_zero n)
theorem sumAt_later (c : Dev nD) (t : Fin cfg0.N) (h : t.val ≠ 0) :
    sumAt V c t.val t.isLt = k0_pay5 (iblk0 V c 0 t) (iblk0 V c 1 t) (iblk0 V c 2 t) (iblk0 V c 3 t)
      (sumAt V c (t.val - 1) (Nat.lt_of_le_of_lt (Nat.sub_le _ _) t.isLt)) := by
  obtain ⟨n, hn⟩ := t
  cases n with
  | zero => exact absurd rfl h
  | succ n => rfl
theorem sqAt_first (c : Dev nD) (t : Fin cfg0.N) (h : t.val = 0) :
    sqAt V c t.val t.isLt = k0_pay1 (k0_pay6 (iblk0 V c 0 t) (iblk0 V c 1 t) (iblk0 V c 2 t) (iblk0 V c 3 t) (k0_pay3 (F := F))) := by
  obtain ⟨n, hn⟩ := t
  cases n with
  | zero => rfl
  | succ n => exact absurd h (Nat.succ_ne_zero n)
theorem sqAt_later (c : Dev nD) (t : Fin cfg0.N) (h : t.val ≠ 0) :
    sqAt V c t.val t.isLt = k0_pay1 (k0_pay6 (iblk0 V c 0 t) (iblk0 V c 1 t) (iblk0 V c 2 t) (iblk0 V c 3 t)
      (sqAt V c (t.val - 1) (Nat.lt_of_le_of_lt (Nat.sub_le _ _) t.isLt))) := by
  obtain ⟨n, hn⟩ := t
  cases n with
  | zero => exact absurd rfl h
  | succ n => rfl

/-! ## What the pallas_call is handed, sorted out -/

/-- The scoped buffers the pallas_call does not stage through are the two accumulators and the second pallas_call's staging
    buffers; with the generator register they are what it is handed, and what it hands back. -/
theorem handed_split (c : Dev nD) :
    (Pipeline.ΦA spec0 c : sProp 𝕄) ⊢ iprop((∃ d, owns (c : Thread nD τ) accSum fullShare d) ∗ (∃ d, owns (c : Thread nD τ) accSq fullShare d)
      ∗ otherScoped (F := F) c ∗ (∃ r, prngReg c r)) := by
  unfold Pipeline.ΦA otherScoped; rw [scopedRest0_eq]; simp only [accSum, accSq, owns_whole]
  iintro ⟨⟨Ha, Hb, H1, H2, H3, H4, H5, H6, H7⟩, Hp⟩
  isplitl [Ha]; · iexact Ha
  isplitl [Hb]; · iexact Hb
  isplitr [Hp]
  · isplitl [H1]; · iexact H1
    isplitl [H2]; · iexact H2
    isplitl [H3]; · iexact H3
    isplitl [H4]; · iexact H4
    isplitl [H5]; · iexact H5
    isplitl [H6]; · iexact H6
    iexact H7
  iexact Hp
theorem handed_join (c : Dev nD) :
    iprop((∃ d, owns (c : Thread nD τ) accSum fullShare d) ∗ (∃ d, owns (c : Thread nD τ) accSq fullShare d)
      ∗ otherScoped (F := F) c ∗ (∃ r, prngReg c r)) ⊢ (Pipeline.ΦA spec0 c : sProp 𝕄) := by
  unfold Pipeline.ΦA otherScoped; rw [scopedRest0_eq]; simp only [accSum, accSq, owns_whole]
  iintro ⟨Ha, Hb, ⟨H1, H2, H3, H4, H5, H6, H7⟩, Hp⟩
  isplitr [Hp]
  · isplitl [Ha]; · iexact Ha
    isplitl [Hb]; · iexact Hb
    isplitl [H1]; · iexact H1
    isplitl [H2]; · iexact H2
    isplitl [H3]; · iexact H3
    isplitl [H4]; · iexact H4
    isplitl [H5]; · iexact H5
    isplitl [H6]; · iexact H6
    iexact H7
  iexact Hp

/-! ## The body obligation -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any tile. The inputs' buffers hold their blocks; the tile's number says which case it is in; the kernel is
    handed the accumulators at what the tile before left (at anything before the first tile, which clears them) and
    returns them advanced by this tile; the statistics buffer is passed through untouched except at the last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = carried V c (t.val + 1) t.isLt from rfl, carried_succ]
  have hN : t.val < 10 := lt_of_lt_of_eq t.isLt (show cfg0.N = 10 from N_0)
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  rw [show (dat0 V c).leavesExact 3 t = owns (c : Thread nD τ) (st0_3 t) fullShare ((dat0 V c).after 3 t) from by
    unfold Dat.leavesExact; rw [live0_3 t], after0_3]
  rw [show (dat0 V c).leavesExact 4 t = owns (c : Thread nD τ) (st0_4 t) fullShare ((dat0 V c).after 4 t) from by
    unfold Dat.leavesExact; rw [live0_4 t], after0_4]
  unfold tileAt
  rw [carried_castSucc]
  by_cases h0 : t.val = 0
  · have hF : isFirst (grid0.coords t) := (first_iff t).mpr h0
    have hL : ¬isLast (grid0.coords t) := fun h => by have := (last_iff t).mp h; omega
    rw [Dat.leavesExact_idle (dat0 V c) 5 t (idle0_5 t hL) (noFlush0_5 t hL), carried_zero V c _ _ h0,
      sumAt_first V c t h0, sqAt_first V c t h0]
    iintro ⟨HΦ, Ho, ⟨%d0, H0⟩, ⟨%d1, H1⟩, ⟨%d2, H2⟩, ⟨%d3, H3⟩, ⟨%d4, H4⟩, ⟨%d5, H5⟩⟩
    ihave HΦ' := handed_split c $$ HΦ
    icases HΦ' with ⟨Ha, Hb, Hs, Hp⟩
    iapply (body_first c (grid0.coords t) _ _ _ _ _ _ _ _ _ _ _ _ _ _ _ _ hF hL (iblk0 V c 0 t) (iblk0 V c 1 t) (iblk0 V c 2 t) (iblk0 V c 3 t) ((dat0 V c).before 5 t d5) Set.univ _)
    isplitl [H0]; · iexact H0
    isplitl [H1]; · iexact H1
    isplitl [H2]; · iexact H2
    isplitl [H3]; · iexact H3
    isplitl [H4]; · iexists _; iexact H4
    isplitl [H5]; · iexact H5
    isplitl [Ha]; · iexact Ha
    isplitl [Hb]; · iexact Hb
    iintro ⟨H0, H1, H2, H3, H4, H5, Ha, Hb⟩
    isplitl [Ha Hb Hs Hp]
    · isplitl [Ha]; · iexact Ha
      isplitl [Hb]; · iexact Hb
      isplitl [Hs]; · iexact Hs
      iexact Hp
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · have hF : ¬isFirst (grid0.coords t) := fun h => h0 ((first_iff t).mp h)
      have hL : isLast (grid0.coords t) := (last_iff t).mpr h9
      rw [show (dat0 V c).leavesExact 5 t = owns (c : Thread nD τ) (st0_5 t) fullShare ((dat0 V c).after 5 t) from by
        unfold Dat.leavesExact; rw [live0_5 t hL], after0_5, carried_pos V c _ _ h0, sumAt_later V c t h0, sqAt_later V c t h0]
      iintro ⟨⟨Ha, Hb, Hs, Hp⟩, Ho, ⟨%d0, H0⟩, ⟨%d1, H1⟩, ⟨%d2, H2⟩, ⟨%d3, H3⟩, ⟨%d4, H4⟩, ⟨%d5, H5⟩⟩
      iapply (body_last c (grid0.coords t) _ _ _ _ _ _ _ _ _ _ _ _ _ _ _ _ hF hL (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Ha]; · iexact Ha
      isplitl [Hb]; · iexact Hb
      iintro ⟨H0, H1, H2, H3, H4, H5, Ha, Hb⟩
      isplitl [Ha Hb Hs Hp]
      · isplitl [Ha]; · iexact Ha
        isplitl [Hb]; · iexact Hb
        isplitl [Hs]; · iexact Hs
        iexact Hp
      isplitl [Ho]; · iexact Ho
      isplitl [H0]; · iexact H0
      isplitl [H1]; · iexact H1
      isplitl [H2]; · iexact H2
      isplitl [H3]; · iexact H3
      isplitl [H4]; · iexact H4
      iexact H5
    · have hF : ¬isFirst (grid0.coords t) := fun h => h0 ((first_iff t).mp h)
      have hL : ¬isLast (grid0.coords t) := fun h => h9 ((last_iff t).mp h)
      rw [Dat.leavesExact_idle (dat0 V c) 5 t (idle0_5 t hL) (noFlush0_5 t hL), carried_pos V c _ _ h0,
        sumAt_later V c t h0, sqAt_later V c t h0]
      iintro ⟨⟨Ha, Hb, Hs, Hp⟩, Ho, ⟨%d0, H0⟩, ⟨%d1, H1⟩, ⟨%d2, H2⟩, ⟨%d3, H3⟩, ⟨%d4, H4⟩, ⟨%d5, H5⟩⟩
      iapply (body_mid c (grid0.coords t) _ _ _ _ _ _ _ _ _ _ _ _ _ _ _ _ hF hL (iblk0 V c 0 t) (iblk0 V c 1 t) (iblk0 V c 2 t) (iblk0 V c 3 t) ((dat0 V c).before 5 t d5) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [Ha]; · iexact Ha
      isplitl [Hb]; · iexact Hb
      iintro ⟨H0, H1, H2, H3, H4, H5, Ha, Hb⟩
      isplitl [Ha Hb Hs Hp]
      · isplitl [Ha]; · iexact Ha
        isplitl [Hb]; · iexact Hb
        isplitl [Hs]; · iexact Hs
        iexact Hp
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the pallas_call is handed is what it carries before the first tile; -/
theorem hin0 (c : Dev nD) : (Pipeline.ΦA spec0 c : sProp 𝕄) ⊢ (dat0 (F := F) V c).Φ 0 := by
  rw [show (dat0 V c).Φ 0 = carried V c 0 (Nat.zero_le _) from rfl, carried_zero V c 0 _ rfl]

/-- and after the last tile it hands the same buffers back, the accumulators' contents forgotten. -/
theorem hout0 (c : Dev nD) : (dat0 (F := F) V c).Φ (Fin.last cfg0.N) ⊢ (Pipeline.ΦA spec0 c : sProp 𝕄) := by
  have hne : (Fin.last cfg0.N).val ≠ 0 := by rw [Fin.val_last]; have : cfg0.N = 10 := N_0; omega
  rw [show (dat0 V c).Φ (Fin.last cfg0.N) = carried V c (Fin.last cfg0.N).val (Nat.le_of_lt_succ (Fin.last cfg0.N).isLt) from rfl,
    carried_pos V c _ _ hne]
  iintro ⟨Ha, Hb, Hs, Hp⟩
  iapply handed_join c
  isplitl [Ha]; · iexists _; iexact Ha
  isplitl [Hb]; · iexists _; iexact Hb
  isplitl [Hs]; · iexact Hs
  iexact Hp

end Cert.Kernel.Hand

end
-- ==== Proof.Bits.Region1.lean ====
import proofs.«168652_j88974542504681_1_alg».proof.Proof.Gen.Kernel.Launch
import proofs.«168652_j88974542504681_1_alg».proof.Proof.Gen.Kernel.Skeleton
import proofs.«168652_j88974542504681_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The normalisation kernel as a pipeline region

The second pallas_call of the program runs the kernel body `cc1__norm_kernel_impl` at each of the ten grid points. It
has five windows: the activations block ([5000,128], a new block at every point), the scale gamma and the shift
beta ([128] each) and the two rows of column statistics ([2,128]), which stay in place after the first point, and
the output block ([5000,128]), written back at every point.

Everything here is stated at a parameter `V`: the TensorCore's buffer contents when the region is entered. The
region's half of the certificate says what the body finds in each window's buffer (the window's block of the array
as `V` has it) and what it leaves (the inputs as found, the output at one closed form of the four input blocks),
and proves the body's triple against exactly that. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in an input window's buffer

An input window's buffer holds the window's block at EVERY point, whether the pipeline fetched it there or not.
Where it was fetched this is what the fetch put there. Where it was not (gamma, beta and the statistics after the
first point) the block index has not moved since the last fetch and the body does not write the buffer, so what
was fetched earlier is still this point's block. The library's lemma covers both cases at once; it asks that the
window be an input, never idle, uncut, and that the body leave the block in place (`hafter`). The four lemmas are
stated for ANY proof data with `V`'s arrays, so that they can be used before the data of this region is defined. -/

/-- The activations' buffer holds the activations' block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- Gamma's buffer holds gamma, at the first point (fetched) and at the later ones (kept). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- Beta's buffer holds beta. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- The statistics' buffer holds the two rows of statistics. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-! ## The body's accesses

The body touches four rectangles: the whole [5000,128] tile (the load of the activations, and the load and the
store of the output), the whole [128] vector (gamma and beta), and the two [1,128] rows of the statistics (row 0
the column sums, row 1 the column sums of squares). -/

/-- The whole [5000,128] tile. -/
abbrev r1_tile : Rect S5000x128 := Rect.unit (s := S5000x128) ![0, 0] S5000x128.size inb_S5000x128_S5000x128_0_0
/-- Row 0 of the [2,128] statistics. -/
abbrev r1_row0 : Rect S2x128 := Rect.unit (s := S2x128) ![0, 0] S1x128.size inb_S2x128_S1x128_0_0
/-- Row 1 of the [2,128] statistics. -/
abbrev r1_row1 : Rect S2x128 := Rect.unit (s := S2x128) ![1, 0] S1x128.size inb_S2x128_S1x128_1_0
/-- The whole [128] vector. -/
abbrev r1_vec : Rect S128 := Rect.unit (s := S128) ![0] S128.size inb_S128_S128_0

/-! ## What the body leaves in the output window's buffer -/

/-- Window 4's buffer after the body, from the four input blocks (`x0` the activations, `x1` gamma, `x2` beta, `x3` the
    statistics): ONE piece, the whole tile, whose payload is the kernel's arithmetic on the five values it loads
    — the two rows of `x3`, all of `x1`, all of `x0`, all of `x2`. The output buffer's earlier contents, which the body
    also loads, do not enter it. -/
def out1_4 (x0 : Vec F S5000x128 .f32) (x1 x2 : Vec F S128 .f32) (x3 : Vec F S2x128 .f32) : Vec F S5000x128 .f32 :=
  View.canon [⟨r1_tile, k1_pay1 (View.ld x3 r1_row0) (View.ld x3 r1_row1) (View.ld x1 r1_vec) (View.ld x0 r1_tile) (View.ld x2 r1_vec)⟩]

/-- The single store is of the whole tile, so it covers the buffer: every index lies in the piece's rectangle. -/
theorem cover1_4 (p0 : Vec F S5000x128 .f32) (y : S5000x128.Idx) :
    ∃ pc ∈ ([⟨r1_tile, p0⟩] : List (View.Piece (Elt F) S5000x128 .f32)), y ∈ pc.1.set :=
  View.cover_of_tiled [⟨r1_tile, p0⟩] S5000x128.size (by rfl) y

/-! ## The body's triple -/

set_option maxHeartbeats 1000000 in
/-- The kernel body on whole staging memrefs — the four inputs' at contents `x0 … x3`, the output's at anything —
    runs to the continuation holding the inputs as they were and the output at `out1_4` of the inputs.

    The body is six loads and one store. Each load reads its rectangle of the contents its buffer has (the load
    of the output buffer reads whatever was there, and its value is never used); the store overwrites the whole
    output tile with the payload computed from the first five loads. So the output buffer ends as "the earlier
    contents with one piece written", which reads as the closed form `out1_4` because that piece covers the buffer
    (`cover1_4`). -/
theorem sound_kernel1 (c : Dev nD) (E : Set ℕ) (i : grid1.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S2x128 .f32) (harg4 : arg4.IsWhole)
    (arg5 : Memref sig .tc .vmem S5000x128 .f32) (harg5 : arg5.IsWhole)
    (x0 : Vec F S5000x128 .f32) (x1 x2 : Vec F S128 .f32) (x3 : Vec F S2x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__norm_kernel_impl i arg1 harg1 arg2 harg2 arg3 harg3 arg4 harg4 arg5 harg5) K := by
  simp only [cc1__norm_kernel_impl_eq_skeleton]; unfold cc1__norm_kernel_impl_skel
  unfold owns
  -- open each buffer: its raw contents f, and the fact that they read as the stated contents
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  -- run the six loads and the store
  sl_exec
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output: one covering write over the old contents reads as the canonical form of that write
  iexists _; isplitr
  swap; · iexact H5
  ipureintro
  exact View.read_writes_eq_canon _ _ _ (cover1_4 _)

/-! ## The pipeline's proof data -/

/-- The proof data of the normalisation pipeline on core `c`: the arrays as the region finds them (`V`); after the
    body at point `t` each input's buffer still at its block, and the output's at `out1_4` of the four input blocks;
    the invariant is the class's (the scoped buffers and the generator register, untouched by the body); nothing is
    owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: the inputs' blocks in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- and the output at the closed form of the four input blocks. -/
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, what the core owes, and the five windows' current
    buffers, each at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. The four inputs' buffers hold their blocks (`before1_W`), the output's holds something, so
    the kernel's triple applies at those four blocks; the invariant and what the core owes do not change from a
    point to the next and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: its product over the five windows written out is exactly
    `bodyPre1` before and `bodyPost1` after. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
import proofs.«168652_j88974542504681_1_alg».proof.Proof.Bits.Region0Data
import proofs.«168652_j88974542504681_1_alg».proof.Proof.Bits.Region1
import proofs.«168652_j88974542504681_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of the whole program

The program is seven pieces in a row: five stretches of host operations (the two degree counts, each clipped from
below at one, and the degree-normalised aggregation of the node features along the edges), then the statistics
pallas_call, then the normalisation pallas_call. This file follows the TensorCore's buffers through the seven pieces and concludes that
every execution from a launch memory `m` terminates with every unscoped buffer at a NAMED contents: the last of
eight valuations `W0 … W7`, each obtained from the one before it by what its piece does.

## The buffer contents at each boundary

A host stretch changes the buffers as `StableHlo.after` says. A pallas_call changes exactly its windows' arrays,
which end at what its write-backs leave (`Dat.arrAt … N`: an input's array as it was, an output's with every
written-back block folded in); every other buffer is as the pallas_call found it. -/

variable (m : (ℓ : Loc nD τ sig) → Buf (Elt F) ℓ) (ρ : Dev nD → PrngReg)

/-- Core `c`'s buffers at launch: the launch memory (with every semaphore at zero and the generator registers `ρ`). -/
abbrev W0 : Dev nD → Valuation τ sig (Elt F) := fun c b => (⟨m, fun _ => 0, ρ⟩ : MemSt nD τ sig (Elt F)).mem ((c : Dev nD), b)
/-- After the first stretch (the number of edges leaving each node). -/
abbrev W1 : Dev nD → Valuation τ sig (Elt F) := fun c => StableHlo.after hostOps0 (W0 m ρ c)
/-- After the second (that count clipped from below at one). -/
abbrev W2 : Dev nD → Valuation τ sig (Elt F) := fun c => StableHlo.after hostOps0_1 (W1 m ρ c)
/-- After the third (the number of edges arriving at each node). -/
abbrev W3 : Dev nD → Valuation τ sig (Elt F) := fun c => StableHlo.after hostOps0_2 (W2 m ρ c)
/-- After the fourth (that count clipped from below at one). -/
abbrev W4 : Dev nD → Valuation τ sig (Elt F) := fun c => StableHlo.after hostOps0_3 (W3 m ρ c)
/-- After the fifth (the features scaled by the inverse square root of the out-degree, gathered along the edges'
    sources, summed at their destinations and scaled by the inverse square root of the in-degree): what the statistics
    pallas_call is entered from. -/
abbrev W5 : Dev nD → Valuation τ sig (Elt F) := fun c => StableHlo.after hostOps0_4 (W4 m ρ c)
/-- The same read at the TensorCore's references (what the first pipeline's proof data take). -/
abbrev V5 : (c : Dev nD) → (b : Ref sig .tc) → Buf (Elt F) ((c : Thread nD τ).loc b) := fun c b => W5 m ρ c b

/-- After the statistics pallas_call: its six arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (what the second pipeline's proof data take). -/
abbrev V6 : (c : Dev nD) → (b : Ref sig .tc) → Buf (Elt F) ((c : Thread nD τ).loc b) := fun c b => W6 m ρ c b
/-- At the first pallas_call's exit each of its arrays holds what the pipeline leaves, -/
theorem hF0 (c : Dev nD) (w : Fin cfg0.W) : (dat0 (V5 m ρ) c).arrAt w cfg0.N = V6 m ρ c (Pipeline.arrRef spec0 w) :=
  (W6_arr m ρ c w).symm
/-- and every other buffer what it held at entry. -/
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the normalisation pallas_call: its five arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The arguments end as launched

No piece changes an argument array. A host stretch leaves alone every buffer that is not one of its results (the
lists of results are `hostOpsK_W`). A pallas_call leaves alone a buffer that is none of its windows'
arrays, and an array it only READS, through an input window, ends as it was entered (`Dat.arrAt_in`). So each
argument's contents walk back from `W7` to the launch memory. -/

/-- A buffer that is no result of the first stretch is unchanged by it; likewise for the other four. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h

/-- A buffer that is a result of none of the five stretches holds at the first pallas_call's entry what it held at launch. -/
theorem W5_of_host (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (W5_of m ρ c r h4).trans <| (W4_of m ρ c r h3).trans <| (W3_of m ρ c r h2).trans <| (W2_of m ρ c r h1).trans <|
    (W1_of m ρ c r h0).trans rfl

/-- The node features: read by the fifth stretch, then by the first pallas_call through its input window 1. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) :=
        (W6_arr m ρ c 1).trans (((dat0 (V5 m ρ) c).arrAt_in 1 rfl _).trans (A_eq0 (V5 m ρ) c 1))
    _ = m ((c : Thread nD τ).loc main_arg0) := W5_of_host m ρ c main_arg0 (by decide) (by decide) (by decide) (by decide) (by decide)

/-- The two weight matrices: the first pallas_call's input windows 2 and 3. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) :=
        (W6_arr m ρ c 2).trans (((dat0 (V5 m ρ) c).arrAt_in 2 rfl _).trans (A_eq0 (V5 m ρ) c 2))
    _ = m ((c : Thread nD τ).loc main_arg1) := W5_of_host m ρ c main_arg1 (by decide) (by decide) (by decide) (by decide) (by decide)
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) :=
        (W6_arr m ρ c 3).trans (((dat0 (V5 m ρ) c).arrAt_in 3 rfl _).trans (A_eq0 (V5 m ρ) c 3))
    _ = m ((c : Thread nD τ).loc main_arg2) := W5_of_host m ρ c main_arg2 (by decide) (by decide) (by decide) (by decide) (by decide)

/-- Gamma and beta: the second pallas_call's input windows 1 and 2; the first pallas_call does not touch them. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) :=
        (W7_arr m ρ c 1).trans (((dat1 (V6 m ρ) c).arrAt_in 1 rfl _).trans (A_eq1 (V6 m ρ) c 1))
    _ = W5 m ρ c (Proc.devRef .tc main_arg3) := W6_of_ne m ρ c main_arg3 (by decide)
    _ = m ((c : Thread nD τ).loc main_arg3) := W5_of_host m ρ c main_arg3 (by decide) (by decide) (by decide) (by decide) (by decide)
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) :=
        (W7_arr m ρ c 2).trans (((dat1 (V6 m ρ) c).arrAt_in 2 rfl _).trans (A_eq1 (V6 m ρ) c 2))
    _ = W5 m ρ c (Proc.devRef .tc main_arg4) := W6_of_ne m ρ c main_arg4 (by decide)
    _ = m ((c : Thread nD τ).loc main_arg4) := W5_of_host m ρ c main_arg4 (by decide) (by decide) (by decide) (by decide) (by decide)

/-- The two edge-index arrays: read by host stretches only; no pallas_call has a window on them. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = m ((c : Thread nD τ).loc main_arg5) := W5_of_host m ρ c main_arg5 (by decide) (by decide) (by decide) (by decide) (by decide)
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = m ((c : Thread nD τ).loc main_arg6) := W5_of_host m ρ c main_arg6 (by decide) (by decide) (by decide) (by decide) (by decide)

/-! ## The proof data of the two pipelines, and what rides beside the buffers -/

/-- Every pipeline's proof data, each at the contents its pallas_call is entered from: a literal `match`, so that the
    library's configuration of pipeline `p` at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
/-- The kernels call nothing recursive: no variant is needed. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the core's generator register at some state (a pallas_call's
    invariant takes it in and gives it back) and the record of what the core owes, which is nothing. -/
abbrev R (c : Dev nD) : sProp 𝕄 := iprop((∃ r, prngReg c r) ∗ ∃ W, owes (c : Thread nD τ) (0 : CellTallies nD τ sig Unit) W)
/-- A host stretch as a segment: from every unscoped buffer at the contents `W` to every unscoped buffer at
    `StableHlo.after ops (W c)` — the next boundary's contents by name —, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds: what reads a buffer out of `run_all`. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of dues: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The pallas_calls as segments

A pallas_call is entered from the thread state "every unscoped buffer at the boundary's contents, `R`". Entering
splits the pipeline's arrays off the unscoped buffers (the rest `Z` bypasses the pallas_call), hands the generator
register (`X`) and the scoped buffers to the pipeline's invariant, and keeps the record of dues. Leaving does the
reverse: the invariant gives the register back (`Y`), and the arrays, now at what the write-backs left, rejoin the rest
as "every unscoped buffer at the next boundary's contents" — which is how `W6` and `W7` were defined. -/

set_option backward.isDefEq.respectTransparency.types false in
/-- The NORMALISATION pallas_call: entered at `W6`, left at `W7`. Its invariant is the constant one (the scoped buffers
    and the generator register), so entering and leaving it only reorder the conjuncts. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The statistics pallas_call, from three facts about its body

Its invariant is not constant: between tiles the kernel keeps the two running sums in scratch memory, so the invariant
before tile `t` names their contents. What this file needs of that kernel is stated here as three hypotheses and proved
elsewhere: the body's obligation at every tile, that the constant invariant (scoped buffers at anything, generator
register at some state) implies the invariant before the first tile, and that the invariant after the last tile implies
the constant one again (the accumulators' contents forgotten). -/

/-- The body's obligation at every tile, whatever the pallas_call is entered from. -/
abbrev Hbody0 : Prop := ∀ (V : (c : Dev nD) → (b : Ref sig .tc) → Buf (Elt F) ((c : Thread nD τ).loc b)) (c : Dev nD),
  BodyObligation (dat0 (F := F) V c) (defs₀ (F := F)) Variants.none () Set.univ
/-- The constant invariant implies the invariant before the first tile. -/
abbrev Hin0 : Prop := ∀ (V : (c : Dev nD) → (b : Ref sig .tc) → Buf (Elt F) ((c : Thread nD τ).loc b)) (c : Dev nD),
  (Pipeline.ΦA spec0 c : sProp 𝕄) ⊢ (dat0 (F := F) V c).Φ 0
/-- The invariant after the last tile implies the constant one. -/
abbrev Hout0 : Prop := ∀ (V : (c : Dev nD) → (b : Ref sig .tc) → Buf (Elt F) ((c : Thread nD τ).loc b)) (c : Dev nD),
  (dat0 (F := F) V c).Φ (Fin.last cfg0.N) ⊢ (Pipeline.ΦA spec0 c : sProp 𝕄)

set_option backward.isDefEq.respectTransparency.types false in
/-- The STATISTICS pallas_call: entered at `W5`, left at `W6`. Entering makes the constant invariant out of the register
    and the scoped buffers and then passes to the invariant before the first tile (`hin0`); leaving passes from the
    invariant after the last tile back to the constant one (`hout0`) and takes it apart again. -/
def reg0 (hbody0 : Hbody0 (F := F)) (hin0 : Hin0 (F := F)) (hout0 : Hout0 (F := F)) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hbody0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the register and the scoped buffers make the constant invariant, which implies the one before the first tile
    refine .trans ?_ (hin0 (V5 m ρ) c)
    unfold Pipeline.ΦA
    iintro ⟨Hp, -, Hr⟩
    isplitl [Hr]; · iexact Hr
    iexact Hp
  hout c := by
    -- the invariant after the last tile implies the constant one, which is the scoped buffers and the register
    refine .trans (hout0 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven segments in order: a host segment per stretch, each from its boundary's contents, then the two pallas_calls. -/
abbrev segs (hbody0 : Hbody0 (F := F)) (hin0 : Hin0 (F := F)) (hout0 : Hout0 (F := F)) :
    List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ hbody0 hin0 hout0),
    .region (reg1 m ρ) ]

/-- The program IS the run of the segments: it is the chain of its seven items, and so is the segments' run. -/
theorem main_run (hbody0 : Hbody0 (F := F)) (hin0 : Hin0 (F := F)) (hout0 : Hout0 (F := F)) (c : Dev nD) : main (F := F) c = Pipeline.Seg.run (segs m ρ hbody0 hin0 hout0) :=
  (main_chain c).trans (by chain_rfl)

set_option backward.isDefEq.respectTransparency.types false in
/-- THE RUN. From any launch memory `m` with every semaphore at zero, every weakly fair execution of the program on the
    TensorCores terminates without a fault, and in every final state each unscoped buffer of each core holds what the
    last valuation `W7` names. The thread states chain by construction (each segment's post is the next one's pre, word
    for word); the launch deals the first one; the last one, held beside the final state, reads every buffer. -/
theorem run_all (hbody0 : Hbody0 (F := F)) (hin0 : Hin0 (F := F)) (hout0 : Hout0 (F := F)) :
    θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ hbody0 hin0 hout0)
    (fun c Q => by rw [main_run m ρ hbody0 hin0 hout0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Hand

end
-- ==== Proof.Region0Data.lean ====
import proofs.«168652_j88974542504681_1_alg».proof.Proof.Gen.KernelIdeal.Launch
import proofs.«168652_j88974542504681_1_alg».proof.Proof.Gen.KernelIdeal.Skeleton
import proofs.«168652_j88974542504681_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The statistics kernel over ten tiles: what each buffer holds after each tile

The first pallas_call visits ten tiles of 5000 rows. At tile `t` it stores the tile's activations (the skeleton's
payload `k0_pay4` of the tile's four input blocks) and adds the tile's column sums of the activations and of their
squares to two one-row accumulators that it keeps in scratch memory between tiles (`k0_pay5`, and `k0_pay1` of
`k0_pay6`); at the first tile the accumulators are cleared first (`k0_pay2`, `k0_pay3`); at the last tile both rows
are copied into the two-row statistics buffer, which is written back only there. Everything here is stated at a
parameter `V`, the contents of the TensorCore's buffers when the pallas_call is entered, and at any float instance. -/

variable (V : (c : Dev nD) → (b : Ref sig .tc) → Buf (Elt F) ((c : Thread nD τ).loc b))

/-- Window `w`'s block at tile `t`, read off its array as the pallas_call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations of tile `t`: the stored payload of the tile's four input blocks. -/
def tileAt (c : Dev nD) (t : Fin cfg0.N) : Vec F S5000x128 .f32 :=
  k0_pay4 (iblk0 V c 0 t) (iblk0 V c 1 t) (iblk0 V c 2 t) (iblk0 V c 3 t)

/-- The running column sums after tile `n`: cleared, then advanced once per tile. -/
def sumAt (c : Dev nD) : (n : ℕ) → n < cfg0.N → Vec F S1x128 .f32
  | 0, h => k0_pay5 (iblk0 V c 0 ⟨0, h⟩) (iblk0 V c 1 ⟨0, h⟩) (iblk0 V c 2 ⟨0, h⟩) (iblk0 V c 3 ⟨0, h⟩) (k0_pay2 (F := F))
  | n + 1, h => k0_pay5 (iblk0 V c 0 ⟨n + 1, h⟩) (iblk0 V c 1 ⟨n + 1, h⟩) (iblk0 V c 2 ⟨n + 1, h⟩) (iblk0 V c 3 ⟨n + 1, h⟩)
      (sumAt c n (Nat.lt_of_succ_lt h))

/-- The running column sums of squares after tile `n`. -/
def sqAt (c : Dev nD) : (n : ℕ) → n < cfg0.N → Vec F S1x128 .f32
  | 0, h => k0_pay1 (k0_pay6 (iblk0 V c 0 ⟨0, h⟩) (iblk0 V c 1 ⟨0, h⟩) (iblk0 V c 2 ⟨0, h⟩) (iblk0 V c 3 ⟨0, h⟩) (k0_pay3 (F := F)))
  | n + 1, h => k0_pay1 (k0_pay6 (iblk0 V c 0 ⟨n + 1, h⟩) (iblk0 V c 1 ⟨n + 1, h⟩) (iblk0 V c 2 ⟨n + 1, h⟩) (iblk0 V c 3 ⟨n + 1, h⟩)
      (sqAt c n (Nat.lt_of_succ_lt h)))

/-- The two rows of the statistics buffer: the sums in row 0, the sums of squares in row 1. -/
def statsOf (s q : Vec F S1x128 .f32) : Vec F S2x128 .f32 :=
  View.canon [⟨Rect.unit (s := S2x128) ![1, 0] S1x128.size inb_S2x128_S1x128_1_0, q⟩,
    ⟨Rect.unit (s := S2x128) ![0, 0] S1x128.size inb_S2x128_S1x128_0_0, s⟩]

/-- The two accumulators, as the whole scratch buffers the kernel is passed. -/
abbrev accSum : Memref sig .tc .vmem S1x128 .f32 := Memref.whole cc0_scratch0
abbrev accSq : Memref sig .tc .vmem S1x128 .f32 := Memref.whole cc0_scratch1

/-- The core's scoped buffers that this pallas_call neither stages through nor names: the second pallas_call's staging
    buffers, each whole at some contents. They ride through every tile untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- What the pallas_call keeps between tiles, before tile `n`: before the first tile the scoped buffers at anything and
    the generator register at some state; afterwards the two accumulators at what tile `n - 1` left in them, the other
    scoped buffers at anything, the generator register at some state. -/
def carried (c : Dev nD) : (n : ℕ) → n ≤ cfg0.N → sProp 𝕄
  | 0, _ => Pipeline.ΦA spec0 c
  | n + 1, hn => iprop(owns (c : Thread nD τ) accSum fullShare (sumAt V c n hn) ∗ owns (c : Thread nD τ) accSq fullShare (sqAt V c n hn)
      ∗ otherScoped (F := F) c ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(owns (c : Thread nD τ) accSum fullShare (sumAt V c n hn) ∗ owns (c : Thread nD τ) accSq fullShare (sqAt V c n hn)
      ∗ otherScoped (F := F) c ∗ (∃ r, prngReg c r)) := rfl

theorem carried_pos (c : Dev nD) (n : ℕ) (h : n ≤ cfg0.N) (hz : n ≠ 0) :
    carried V c n h = iprop(owns (c : Thread nD τ) accSum fullShare (sumAt V c (n - 1) (by omega)) ∗ owns (c : Thread nD τ) accSq fullShare (sqAt V c (n - 1) (by omega))
      ∗ otherScoped (F := F) c ∗ (∃ r, prngReg c r)) := by
  cases n with
  | zero => exact absurd rfl hz
  | succ n => rfl

/-- The proof data of the first pipeline on core `c`: its arrays as the pallas_call finds them; after tile `t` each input's
    buffer at its block, the activations' buffer at the tile's activations, the statistics buffer at the two accumulators'
    rows; between tiles what the kernel carries; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => tileAt V c t
    | ⟨5, _⟩ => statsOf (sumAt V c t.val t.isLt) (sqAt V c t.val t.isLt)
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = tileAt V c t := by dsimp only [dat0]
theorem after0_5 (c : Dev nD) (t : Fin cfg0.N) :
    (dat0 V c).after 5 t = statsOf (sumAt V c t.val t.isLt) (sqAt V c t.val t.isLt) := by dsimp only [dat0]

/-- The carried state at a tile's start, restated at the tile's number. -/
theorem carried_castSucc (c : Dev nD) (t : Fin cfg0.N) :
    (dat0 V c).Φ t.castSucc = carried V c t.val (Nat.le_of_lt t.isLt) := by
  dsimp only [dat0]; simp only [Fin.coe_castSucc]

end Cert.KernelIdeal.Hand

end
-- ==== Proof.Region0Body.lean ====
import proofs.«168652_j88974542504681_1_alg».proof.Proof.Gen.KernelIdeal.Launch
import proofs.«168652_j88974542504681_1_alg».proof.Proof.Gen.KernelIdeal.Skeleton
import proofs.«168652_j88974542504681_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import proofs.«168652_j88974542504681_1_alg».proof.Proof.Region0Data
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The statistics kernel: its body at every tile

The proof data of the first pallas_call (what each buffer holds after each tile) are stated in the module this one
imports. Here the kernel's body is run: once for a first tile, once for a tile in the middle, once for the last tile,
each time from whole staging buffers holding the tile's four input blocks and the two accumulators at given contents, to
the same buffers with the tile's activations stored and the accumulators advanced; then the three runs are put together
into the obligation the pipeline asks of the body at every tile. -/

/-! ## The body, case by case -/

abbrev isFirst (i : grid0.Coords) : Prop :=
  (Scalar.cmpi .ne (Scalar.extui (Scalar.cmpi .eq (BitVec.ofNat 32 (i 0).val) 0#32)) 0#32) = 1#1
abbrev isLast (i : grid0.Coords) : Prop := k0_cond2 i = 1#1

theorem off2_zero : (![0, 0] : Fin 2 → Nat) = fun _ => 0 := by
  funext a; fin_cases a <;> rfl

/-- The two row stores into the statistics buffer tile it, so they cover it (whatever is stored). -/
theorem cover_rows (p1 p0 : Vec F S1x128 .f32) (y : S2x128.Idx) :
    ∃ pc ∈ ([⟨Rect.unit (s := S2x128) ![1, 0] S1x128.size inb_S2x128_S1x128_1_0, p1⟩,
        ⟨Rect.unit (s := S2x128) ![0, 0] S1x128.size inb_S2x128_S1x128_0_0, p0⟩] : List (View.Piece (Elt F) S2x128 .f32)), y ∈ pc.1.set :=
  View.cover_of_tiled (s := S2x128)
    [⟨Rect.unit (s := S2x128) ![1, 0] S1x128.size inb_S2x128_S1x128_1_0, p1⟩,
      ⟨Rect.unit (s := S2x128) ![0, 0] S1x128.size inb_S2x128_S1x128_0_0, p0⟩] ![1, 128] (by rfl) y

/-- A buffer whose LAST store covered it whole reads back as that store's payload, whatever was stored before. -/
theorem read_whole_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h inb]

set_option maxHeartbeats 1000000 in
theorem body_mid (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
    (hF : ¬isFirst i) (hL : ¬isLast i)
    (x0 x1 : Vec F S5000x128 .f32) (x2 x3 : Vec F S128x128 .f32) (d6 : Vec F S2x128 .f32) (s q : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare d6
        ∗ owns (c : Thread nD τ) arg7 fullShare s ∗ owns (c : Thread nD τ) arg8 fullShare q
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay4 x0 x1 x2 x3) ∗ owns (c : Thread nD τ) arg6 fullShare d6
            ∗ owns (c : Thread nD τ) arg7 fullShare (k0_pay5 x0 x1 x2 x3 s)
            ∗ owns (c : Thread nD τ) arg8 fullShare (k0_pay1 (k0_pay6 x0 x1 x2 x3 q))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3
  obtain rfl := harg6.eq_unread hf6; obtain rfl := harg7.eq_unread hf7; obtain rfl := harg8.eq_unread hf8
  sl_exec (disch := first | exact hF | exact hL)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H6]
  · iexists _; isplitr; · ipureintro; exact harg6.read_unread _
    iexact H6
  isplitl [H7]
  · iexists _; isplitr
    swap; · iexact H7
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  iexists _; isplitr
  swap; · iexact H8
  ipureintro
  refine (read_whole_store _ _ off2_zero _ _ _).trans ?_
  sl_unfold_run_names
  simp only [View.readAt_eq_ld, harg1.read_unread, harg2.read_unread, harg3.read_unread, harg4.read_unread, harg7.read_unread, harg8.read_unread,
    View.ld_unit_zero (S := S5000x128) off2_zero, View.ld_unit_zero (S := S128x128) off2_zero, View.ld_unit_zero (S := S1x128) off2_zero,
    View.readCov_unit_zero (S := S1x128) _ off2_zero]

set_option maxHeartbeats 1000000 in
theorem body_first (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
    (hF : isFirst i) (hL : ¬isLast i)
    (x0 x1 : Vec F S5000x128 .f32) (x2 x3 : Vec F S128x128 .f32) (d6 : Vec F S2x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare d6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay4 x0 x1 x2 x3) ∗ owns (c : Thread nD τ) arg6 fullShare d6
            ∗ owns (c : Thread nD τ) arg7 fullShare (k0_pay5 x0 x1 x2 x3 (k0_pay2 (F := F)))
            ∗ owns (c : Thread nD τ) arg8 fullShare (k0_pay1 (k0_pay6 x0 x1 x2 x3 (k0_pay3 (F := F))))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3
  obtain rfl := harg6.eq_unread hf6
  sl_exec (disch := first | exact hF | exact hL)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H6]
  · iexists _; isplitr; · ipureintro; exact harg6.read_unread _
    iexact H6
  isplitl [H7]
  · iexists _; isplitr
    swap; · iexact H7
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  iexists _; isplitr
  swap; · iexact H8
  ipureintro
  refine (read_whole_store _ _ off2_zero _ _ _).trans ?_
  sl_unfold_run_names
  simp only [View.readAt_eq_ld, harg1.read_unread, harg2.read_unread, harg3.read_unread, harg4.read_unread, harg7.read_unread, harg8.read_unread,
    View.ld_unit_zero (S := S5000x128) off2_zero, View.ld_unit_zero (S := S128x128) off2_zero, View.ld_unit_zero (S := S1x128) off2_zero,
    View.readCov_unit_zero (S := S1x128) _ off2_zero]

set_option maxHeartbeats 1000000 in
theorem body_last (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S5000x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S1x128 .f32) (harg8 : arg8.IsWhole)
    (hF : ¬isFirst i) (hL : isLast i)
    (x0 x1 : Vec F S5000x128 .f32) (x2 x3 : Vec F S128x128 .f32) (s q : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s ∗ owns (c : Thread nD τ) arg8 fullShare q
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k0_pay4 x0 x1 x2 x3)
            ∗ owns (c : Thread nD τ) arg6 fullShare (statsOf (k0_pay5 x0 x1 x2 x3 s) (k0_pay1 (k0_pay6 x0 x1 x2 x3 q)))
            ∗ owns (c : Thread nD τ) arg7 fullShare (k0_pay5 x0 x1 x2 x3 s)
            ∗ owns (c : Thread nD τ) arg8 fullShare (k0_pay1 (k0_pay6 x0 x1 x2 x3 q))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3
  obtain rfl := harg7.eq_unread hf7; obtain rfl := harg8.eq_unread hf8
  sl_exec (disch := first | exact hF | exact hL)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H5]
  · iexists _; isplitr
    swap; · iexact H5
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H6]
  · iexists _; isplitr
    swap; · iexact H6
    ipureintro
    unfold statsOf
    refine (View.read_writes_eq_canon _ _ _ (cover_rows _ _)).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  isplitl [H7]
  · iexists _; isplitr
    swap; · iexact H7
    ipureintro
    refine (read_whole_store _ _ off2_zero _ _ _).trans ?_
    sl_unfold_run_names
    simp only [View.readAt_eq_ld, harg1.read_unread, harg2.read_unread, harg3.read_unread, harg4.read_unread, harg7.read_unread, harg8.read_unread,
      View.ld_unit_zero (S := S5000x128) off2_zero, View.ld_unit_zero (S := S128x128) off2_zero, View.ld_unit_zero (S := S1x128) off2_zero,
      View.readCov_unit_zero (S := S1x128) _ off2_zero]
  iexists _; isplitr
  swap; · iexact H8
  ipureintro
  refine (read_whole_store _ _ off2_zero _ _ _).trans ?_
  sl_unfold_run_names
  simp only [View.readAt_eq_ld, harg1.read_unread, harg2.read_unread, harg3.read_unread, harg4.read_unread, harg7.read_unread, harg8.read_unread,
    View.ld_unit_zero (S := S5000x128) off2_zero, View.ld_unit_zero (S := S128x128) off2_zero, View.ld_unit_zero (S := S1x128) off2_zero,
    View.readCov_unit_zero (S := S1x128) _ off2_zero]

/-! ## The two tests over the grid, and where each window is live -/

variable (V : (c : Dev nD) → (b : Ref sig .tc) → Buf (Elt F) ((c : Thread nD τ).loc b))

/-- The first-tile test holds at tile 0 only; -/
theorem first_iff : ∀ t : Fin cfg0.N, isFirst (grid0.coords t) ↔ t.val = 0 :=
  (by decide +kernel : ∀ t : Fin grid0.N, isFirst (grid0.coords t) ↔ t.val = 0)
/-- the last-tile test at tile 9 only. -/
theorem last_iff : ∀ t : Fin cfg0.N, isLast (grid0.coords t) ↔ t.val = 9 :=
  (by decide +kernel : ∀ t : Fin grid0.N, isLast (grid0.coords t) ↔ t.val = 9)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The statistics window is idle, and not written back, at every tile but the last. -/
theorem idle0_5 : ∀ t : Fin cfg0.N, ¬isLast (grid0.coords t) → cfg0.idle 5 (grid0.coords t) = true := by decide +kernel
theorem noFlush0_5 : ∀ t : Fin cfg0.N, ¬isLast (grid0.coords t) → (cfg0.win 5).flush t = false := by decide +kernel
theorem live0_5 : ∀ t : Fin cfg0.N, isLast (grid0.coords t) → cfg0.idle 5 (grid0.coords t) = false := by decide +kernel

/-! ## Each input's staging buffer holds its block at every tile, fetched there or not -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The accumulators, one tile at a time -/

theorem sumAt_first (c : Dev nD) (t : Fin cfg0.N) (h : t.val = 0) :
    sumAt V c t.val t.isLt = k0_pay5 (iblk0 V c 0 t) (iblk0 V c 1 t) (iblk0 V c 2 t) (iblk0 V c 3 t) (k0_pay2 (F := F)) := by
  obtain ⟨n, hn⟩ := t
  cases n with
  | zero => rfl
  | succ n => exact absurd h (Nat.succ_ne_zero n)
theorem sumAt_later (c : Dev nD) (t : Fin cfg0.N) (h : t.val ≠ 0) :
    sumAt V c t.val t.isLt = k0_pay5 (iblk0 V c 0 t) (iblk0 V c 1 t) (iblk0 V c 2 t) (iblk0 V c 3 t)
      (sumAt V c (t.val - 1) (Nat.lt_of_le_of_lt (Nat.sub_le _ _) t.isLt)) := by
  obtain ⟨n, hn⟩ := t
  cases n with
  | zero => exact absurd rfl h
  | succ n => rfl
theorem sqAt_first (c : Dev nD) (t : Fin cfg0.N) (h : t.val = 0) :
    sqAt V c t.val t.isLt = k0_pay1 (k0_pay6 (iblk0 V c 0 t) (iblk0 V c 1 t) (iblk0 V c 2 t) (iblk0 V c 3 t) (k0_pay3 (F := F))) := by
  obtain ⟨n, hn⟩ := t
  cases n with
  | zero => rfl
  | succ n => exact absurd h (Nat.succ_ne_zero n)
theorem sqAt_later (c : Dev nD) (t : Fin cfg0.N) (h : t.val ≠ 0) :
    sqAt V c t.val t.isLt = k0_pay1 (k0_pay6 (iblk0 V c 0 t) (iblk0 V c 1 t) (iblk0 V c 2 t) (iblk0 V c 3 t)
      (sqAt V c (t.val - 1) (Nat.lt_of_le_of_lt (Nat.sub_le _ _) t.isLt))) := by
  obtain ⟨n, hn⟩ := t
  cases n with
  | zero => exact absurd rfl h
  | succ n => rfl

/-! ## What the pallas_call is handed, sorted out -/

/-- The scoped buffers the pallas_call does not stage through are the two accumulators and the second pallas_call's staging
    buffers; with the generator register they are what it is handed, and what it hands back. -/
theorem handed_split (c : Dev nD) :
    (Pipeline.ΦA spec0 c : sProp 𝕄) ⊢ iprop((∃ d, owns (c : Thread nD τ) accSum fullShare d) ∗ (∃ d, owns (c : Thread nD τ) accSq fullShare d)
      ∗ otherScoped (F := F) c ∗ (∃ r, prngReg c r)) := by
  unfold Pipeline.ΦA otherScoped; rw [scopedRest0_eq]; simp only [accSum, accSq, owns_whole]
  iintro ⟨⟨Ha, Hb, H1, H2, H3, H4, H5, H6, H7⟩, Hp⟩
  isplitl [Ha]; · iexact Ha
  isplitl [Hb]; · iexact Hb
  isplitr [Hp]
  · isplitl [H1]; · iexact H1
    isplitl [H2]; · iexact H2
    isplitl [H3]; · iexact H3
    isplitl [H4]; · iexact H4
    isplitl [H5]; · iexact H5
    isplitl [H6]; · iexact H6
    iexact H7
  iexact Hp
theorem handed_join (c : Dev nD) :
    iprop((∃ d, owns (c : Thread nD τ) accSum fullShare d) ∗ (∃ d, owns (c : Thread nD τ) accSq fullShare d)
      ∗ otherScoped (F := F) c ∗ (∃ r, prngReg c r)) ⊢ (Pipeline.ΦA spec0 c : sProp 𝕄) := by
  unfold Pipeline.ΦA otherScoped; rw [scopedRest0_eq]; simp only [accSum, accSq, owns_whole]
  iintro ⟨Ha, Hb, ⟨H1, H2, H3, H4, H5, H6, H7⟩, Hp⟩
  isplitr [Hp]
  · isplitl [Ha]; · iexact Ha
    isplitl [Hb]; · iexact Hb
    isplitl [H1]; · iexact H1
    isplitl [H2]; · iexact H2
    isplitl [H3]; · iexact H3
    isplitl [H4]; · iexact H4
    isplitl [H5]; · iexact H5
    isplitl [H6]; · iexact H6
    iexact H7
  iexact Hp

/-! ## The body obligation -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any tile. The inputs' buffers hold their blocks; the tile's number says which case it is in; the kernel is
    handed the accumulators at what the tile before left (at anything before the first tile, which clears them) and
    returns them advanced by this tile; the statistics buffer is passed through untouched except at the last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = carried V c (t.val + 1) t.isLt from rfl, carried_succ]
  have hN : t.val < 10 := lt_of_lt_of_eq t.isLt (show cfg0.N = 10 from N_0)
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  rw [show (dat0 V c).leavesExact 3 t = owns (c : Thread nD τ) (st0_3 t) fullShare ((dat0 V c).after 3 t) from by
    unfold Dat.leavesExact; rw [live0_3 t], after0_3]
  rw [show (dat0 V c).leavesExact 4 t = owns (c : Thread nD τ) (st0_4 t) fullShare ((dat0 V c).after 4 t) from by
    unfold Dat.leavesExact; rw [live0_4 t], after0_4]
  unfold tileAt
  rw [carried_castSucc]
  by_cases h0 : t.val = 0
  · have hF : isFirst (grid0.coords t) := (first_iff t).mpr h0
    have hL : ¬isLast (grid0.coords t) := fun h => by have := (last_iff t).mp h; omega
    rw [Dat.leavesExact_idle (dat0 V c) 5 t (idle0_5 t hL) (noFlush0_5 t hL), carried_zero V c _ _ h0,
      sumAt_first V c t h0, sqAt_first V c t h0]
    iintro ⟨HΦ, Ho, ⟨%d0, H0⟩, ⟨%d1, H1⟩, ⟨%d2, H2⟩, ⟨%d3, H3⟩, ⟨%d4, H4⟩, ⟨%d5, H5⟩⟩
    ihave HΦ' := handed_split c $$ HΦ
    icases HΦ' with ⟨Ha, Hb, Hs, Hp⟩
    iapply (body_first c (grid0.coords t) _ _ _ _ _ _ _ _ _ _ _ _ _ _ _ _ hF hL (iblk0 V c 0 t) (iblk0 V c 1 t) (iblk0 V c 2 t) (iblk0 V c 3 t) ((dat0 V c).before 5 t d5) Set.univ _)
    isplitl [H0]; · iexact H0
    isplitl [H1]; · iexact H1
    isplitl [H2]; · iexact H2
    isplitl [H3]; · iexact H3
    isplitl [H4]; · iexists _; iexact H4
    isplitl [H5]; · iexact H5
    isplitl [Ha]; · iexact Ha
    isplitl [Hb]; · iexact Hb
    iintro ⟨H0, H1, H2, H3, H4, H5, Ha, Hb⟩
    isplitl [Ha Hb Hs Hp]
    · isplitl [Ha]; · iexact Ha
      isplitl [Hb]; · iexact Hb
      isplitl [Hs]; · iexact Hs
      iexact Hp
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · have hF : ¬isFirst (grid0.coords t) := fun h => h0 ((first_iff t).mp h)
      have hL : isLast (grid0.coords t) := (last_iff t).mpr h9
      rw [show (dat0 V c).leavesExact 5 t = owns (c : Thread nD τ) (st0_5 t) fullShare ((dat0 V c).after 5 t) from by
        unfold Dat.leavesExact; rw [live0_5 t hL], after0_5, carried_pos V c _ _ h0, sumAt_later V c t h0, sqAt_later V c t h0]
      iintro ⟨⟨Ha, Hb, Hs, Hp⟩, Ho, ⟨%d0, H0⟩, ⟨%d1, H1⟩, ⟨%d2, H2⟩, ⟨%d3, H3⟩, ⟨%d4, H4⟩, ⟨%d5, H5⟩⟩
      iapply (body_last c (grid0.coords t) _ _ _ _ _ _ _ _ _ _ _ _ _ _ _ _ hF hL (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [Ha]; · iexact Ha
      isplitl [Hb]; · iexact Hb
      iintro ⟨H0, H1, H2, H3, H4, H5, Ha, Hb⟩
      isplitl [Ha Hb Hs Hp]
      · isplitl [Ha]; · iexact Ha
        isplitl [Hb]; · iexact Hb
        isplitl [Hs]; · iexact Hs
        iexact Hp
      isplitl [Ho]; · iexact Ho
      isplitl [H0]; · iexact H0
      isplitl [H1]; · iexact H1
      isplitl [H2]; · iexact H2
      isplitl [H3]; · iexact H3
      isplitl [H4]; · iexact H4
      iexact H5
    · have hF : ¬isFirst (grid0.coords t) := fun h => h0 ((first_iff t).mp h)
      have hL : ¬isLast (grid0.coords t) := fun h => h9 ((last_iff t).mp h)
      rw [Dat.leavesExact_idle (dat0 V c) 5 t (idle0_5 t hL) (noFlush0_5 t hL), carried_pos V c _ _ h0,
        sumAt_later V c t h0, sqAt_later V c t h0]
      iintro ⟨⟨Ha, Hb, Hs, Hp⟩, Ho, ⟨%d0, H0⟩, ⟨%d1, H1⟩, ⟨%d2, H2⟩, ⟨%d3, H3⟩, ⟨%d4, H4⟩, ⟨%d5, H5⟩⟩
      iapply (body_mid c (grid0.coords t) _ _ _ _ _ _ _ _ _ _ _ _ _ _ _ _ hF hL (iblk0 V c 0 t) (iblk0 V c 1 t) (iblk0 V c 2 t) (iblk0 V c 3 t) ((dat0 V c).before 5 t d5) _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [Ha]; · iexact Ha
      isplitl [Hb]; · iexact Hb
      iintro ⟨H0, H1, H2, H3, H4, H5, Ha, Hb⟩
      isplitl [Ha Hb Hs Hp]
      · isplitl [Ha]; · iexact Ha
        isplitl [Hb]; · iexact Hb
        isplitl [Hs]; · iexact Hs
        iexact Hp
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the pallas_call is handed is what it carries before the first tile; -/
theorem hin0 (c : Dev nD) : (Pipeline.ΦA spec0 c : sProp 𝕄) ⊢ (dat0 (F := F) V c).Φ 0 := by
  rw [show (dat0 V c).Φ 0 = carried V c 0 (Nat.zero_le _) from rfl, carried_zero V c 0 _ rfl]

/-- and after the last tile it hands the same buffers back, the accumulators' contents forgotten. -/
theorem hout0 (c : Dev nD) : (dat0 (F := F) V c).Φ (Fin.last cfg0.N) ⊢ (Pipeline.ΦA spec0 c : sProp 𝕄) := by
  have hne : (Fin.last cfg0.N).val ≠ 0 := by rw [Fin.val_last]; have : cfg0.N = 10 := N_0; omega
  rw [show (dat0 V c).Φ (Fin.last cfg0.N) = carried V c (Fin.last cfg0.N).val (Nat.le_of_lt_succ (Fin.last cfg0.N).isLt) from rfl,
    carried_pos V c _ _ hne]
  iintro ⟨Ha, Hb, Hs, Hp⟩
  iapply handed_join c
  isplitl [Ha]; · iexists _; iexact Ha
  isplitl [Hb]; · iexists _; iexact Hb
  isplitl [Hs]; · iexact Hs
  iexact Hp

end Cert.KernelIdeal.Hand

end
-- ==== Proof.Region1.lean ====
import proofs.«168652_j88974542504681_1_alg».proof.Proof.Gen.KernelIdeal.Launch
import proofs.«168652_j88974542504681_1_alg».proof.Proof.Gen.KernelIdeal.Skeleton
import proofs.«168652_j88974542504681_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The normalisation kernel as a pipeline region

The second pallas_call of the program runs the kernel body `cc1__norm_kernel_impl` at each of the ten grid points. It
has five windows: the activations block ([5000,128], a new block at every point), the scale gamma and the shift
beta ([128] each) and the two rows of column statistics ([2,128]), which stay in place after the first point, and
the output block ([5000,128]), written back at every point.

Everything here is stated at a parameter `V`: the TensorCore's buffer contents when the region is entered. The
region's half of the certificate says what the body finds in each window's buffer (the window's block of the array
as `V` has it) and what it leaves (the inputs as found, the output at one closed form of the four input blocks),
and proves the body's triple against exactly that. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in an input window's buffer

An input window's buffer holds the window's block at EVERY point, whether the pipeline fetched it there or not.
Where it was fetched this is what the fetch put there. Where it was not (gamma, beta and the statistics after the
first point) the block index has not moved since the last fetch and the body does not write the buffer, so what
was fetched earlier is still this point's block. The library's lemma covers both cases at once; it asks that the
window be an input, never idle, uncut, and that the body leave the block in place (`hafter`). The four lemmas are
stated for ANY proof data with `V`'s arrays, so that they can be used before the data of this region is defined. -/

/-- The activations' buffer holds the activations' block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- Gamma's buffer holds gamma, at the first point (fetched) and at the later ones (kept). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- Beta's buffer holds beta. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- The statistics' buffer holds the two rows of statistics. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-! ## The body's accesses

The body touches four rectangles: the whole [5000,128] tile (the load of the activations, and the load and the
store of the output), the whole [128] vector (gamma and beta), and the two [1,128] rows of the statistics (row 0
the column sums, row 1 the column sums of squares). -/

/-- The whole [5000,128] tile. -/
abbrev r1_tile : Rect S5000x128 := Rect.unit (s := S5000x128) ![0, 0] S5000x128.size inb_S5000x128_S5000x128_0_0
/-- Row 0 of the [2,128] statistics. -/
abbrev r1_row0 : Rect S2x128 := Rect.unit (s := S2x128) ![0, 0] S1x128.size inb_S2x128_S1x128_0_0
/-- Row 1 of the [2,128] statistics. -/
abbrev r1_row1 : Rect S2x128 := Rect.unit (s := S2x128) ![1, 0] S1x128.size inb_S2x128_S1x128_1_0
/-- The whole [128] vector. -/
abbrev r1_vec : Rect S128 := Rect.unit (s := S128) ![0] S128.size inb_S128_S128_0

/-! ## What the body leaves in the output window's buffer -/

/-- Window 4's buffer after the body, from the four input blocks (`x0` the activations, `x1` gamma, `x2` beta, `x3` the
    statistics): ONE piece, the whole tile, whose payload is the kernel's arithmetic on the five values it loads
    — the two rows of `x3`, all of `x1`, all of `x0`, all of `x2`. The output buffer's earlier contents, which the body
    also loads, do not enter it. -/
def out1_4 (x0 : Vec F S5000x128 .f32) (x1 x2 : Vec F S128 .f32) (x3 : Vec F S2x128 .f32) : Vec F S5000x128 .f32 :=
  View.canon [⟨r1_tile, k1_pay1 (View.ld x3 r1_row0) (View.ld x3 r1_row1) (View.ld x1 r1_vec) (View.ld x0 r1_tile) (View.ld x2 r1_vec)⟩]

/-- The single store is of the whole tile, so it covers the buffer: every index lies in the piece's rectangle. -/
theorem cover1_4 (p0 : Vec F S5000x128 .f32) (y : S5000x128.Idx) :
    ∃ pc ∈ ([⟨r1_tile, p0⟩] : List (View.Piece (Elt F) S5000x128 .f32)), y ∈ pc.1.set :=
  View.cover_of_tiled [⟨r1_tile, p0⟩] S5000x128.size (by rfl) y

/-! ## The body's triple -/

set_option maxHeartbeats 1000000 in
/-- The kernel body on whole staging memrefs — the four inputs' at contents `x0 … x3`, the output's at anything —
    runs to the continuation holding the inputs as they were and the output at `out1_4` of the inputs.

    The body is six loads and one store. Each load reads its rectangle of the contents its buffer has (the load
    of the output buffer reads whatever was there, and its value is never used); the store overwrites the whole
    output tile with the payload computed from the first five loads. So the output buffer ends as "the earlier
    contents with one piece written", which reads as the closed form `out1_4` because that piece covers the buffer
    (`cover1_4`). -/
theorem sound_kernel1 (c : Dev nD) (E : Set ℕ) (i : grid1.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S2x128 .f32) (harg4 : arg4.IsWhole)
    (arg5 : Memref sig .tc .vmem S5000x128 .f32) (harg5 : arg5.IsWhole)
    (x0 : Vec F S5000x128 .f32) (x1 x2 : Vec F S128 .f32) (x3 : Vec F S2x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__norm_kernel_impl i arg1 harg1 arg2 harg2 arg3 harg3 arg4 harg4 arg5 harg5) K := by
  simp only [cc1__norm_kernel_impl_eq_skeleton]; unfold cc1__norm_kernel_impl_skel
  unfold owns
  -- open each buffer: its raw contents f, and the fact that they read as the stated contents
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  -- run the six loads and the store
  sl_exec
  sl_step
  iapply Hk
  -- the four inputs are as they were
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output: one covering write over the old contents reads as the canonical form of that write
  iexists _; isplitr
  swap; · iexact H5
  ipureintro
  exact View.read_writes_eq_canon _ _ _ (cover1_4 _)

/-! ## The pipeline's proof data -/

/-- The proof data of the normalisation pipeline on core `c`: the arrays as the region finds them (`V`); after the
    body at point `t` each input's buffer still at its block, and the output's at `out1_4` of the four input blocks;
    the invariant is the class's (the scoped buffers and the generator register, untouched by the body); nothing is
    owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: the inputs' blocks in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- and the output at the closed form of the four input blocks. -/
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, what the core owes, and the five windows' current
    buffers, each at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same with each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. The four inputs' buffers hold their blocks (`before1_W`), the output's holds something, so
    the kernel's triple applies at those four blocks; the invariant and what the core owes do not change from a
    point to the next and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point: its product over the five windows written out is exactly
    `bodyPre1` before and `bodyPost1` after. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«168652_j88974542504681_1_alg».proof.Proof.Region0Data
import proofs.«168652_j88974542504681_1_alg».proof.Proof.Region1
import proofs.«168652_j88974542504681_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of the whole program

The program is seven pieces in a row: five stretches of host operations (the two degree counts, each clipped from
below at one, and the degree-normalised aggregation of the node features along the edges), then the statistics
pallas_call, then the normalisation pallas_call. This file follows the TensorCore's buffers through the seven pieces and concludes that
every execution from a launch memory `m` terminates with every unscoped buffer at a NAMED contents: the last of
eight valuations `W0 … W7`, each obtained from the one before it by what its piece does.

## The buffer contents at each boundary

A host stretch changes the buffers as `StableHlo.after` says. A pallas_call changes exactly its windows' arrays,
which end at what its write-backs leave (`Dat.arrAt … N`: an input's array as it was, an output's with every
written-back block folded in); every other buffer is as the pallas_call found it. -/

variable (m : (ℓ : Loc nD τ sig) → Buf (Elt F) ℓ) (ρ : Dev nD → PrngReg)

/-- Core `c`'s buffers at launch: the launch memory (with every semaphore at zero and the generator registers `ρ`). -/
abbrev W0 : Dev nD → Valuation τ sig (Elt F) := fun c b => (⟨m, fun _ => 0, ρ⟩ : MemSt nD τ sig (Elt F)).mem ((c : Dev nD), b)
/-- After the first stretch (the number of edges leaving each node). -/
abbrev W1 : Dev nD → Valuation τ sig (Elt F) := fun c => StableHlo.after hostOps0 (W0 m ρ c)
/-- After the second (that count clipped from below at one). -/
abbrev W2 : Dev nD → Valuation τ sig (Elt F) := fun c => StableHlo.after hostOps0_1 (W1 m ρ c)
/-- After the third (the number of edges arriving at each node). -/
abbrev W3 : Dev nD → Valuation τ sig (Elt F) := fun c => StableHlo.after hostOps0_2 (W2 m ρ c)
/-- After the fourth (that count clipped from below at one). -/
abbrev W4 : Dev nD → Valuation τ sig (Elt F) := fun c => StableHlo.after hostOps0_3 (W3 m ρ c)
/-- After the fifth (the features scaled by the inverse square root of the out-degree, gathered along the edges'
    sources, summed at their destinations and scaled by the inverse square root of the in-degree): what the statistics
    pallas_call is entered from. -/
abbrev W5 : Dev nD → Valuation τ sig (Elt F) := fun c => StableHlo.after hostOps0_4 (W4 m ρ c)
/-- The same read at the TensorCore's references (what the first pipeline's proof data take). -/
abbrev V5 : (c : Dev nD) → (b : Ref sig .tc) → Buf (Elt F) ((c : Thread nD τ).loc b) := fun c b => W5 m ρ c b

/-- After the statistics pallas_call: its six arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (what the second pipeline's proof data take). -/
abbrev V6 : (c : Dev nD) → (b : Ref sig .tc) → Buf (Elt F) ((c : Thread nD τ).loc b) := fun c b => W6 m ρ c b
/-- At the first pallas_call's exit each of its arrays holds what the pipeline leaves, -/
theorem hF0 (c : Dev nD) (w : Fin cfg0.W) : (dat0 (V5 m ρ) c).arrAt w cfg0.N = V6 m ρ c (Pipeline.arrRef spec0 w) :=
  (W6_arr m ρ c w).symm
/-- and every other buffer what it held at entry. -/
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the normalisation pallas_call: its five arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-! ## The arguments end as launched

No piece changes an argument array. A host stretch leaves alone every buffer that is not one of its results (the
lists of results are `hostOpsK_W`). A pallas_call leaves alone a buffer that is none of its windows'
arrays, and an array it only READS, through an input window, ends as it was entered (`Dat.arrAt_in`). So each
argument's contents walk back from `W7` to the launch memory. -/

/-- A buffer that is no result of the first stretch is unchanged by it; likewise for the other four. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h

/-- A buffer that is a result of none of the five stretches holds at the first pallas_call's entry what it held at launch. -/
theorem W5_of_host (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (W5_of m ρ c r h4).trans <| (W4_of m ρ c r h3).trans <| (W3_of m ρ c r h2).trans <| (W2_of m ρ c r h1).trans <|
    (W1_of m ρ c r h0).trans rfl

/-- The node features: read by the fifth stretch, then by the first pallas_call through its input window 1. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) :=
        (W6_arr m ρ c 1).trans (((dat0 (V5 m ρ) c).arrAt_in 1 rfl _).trans (A_eq0 (V5 m ρ) c 1))
    _ = m ((c : Thread nD τ).loc main_arg0) := W5_of_host m ρ c main_arg0 (by decide) (by decide) (by decide) (by decide) (by decide)

/-- The two weight matrices: the first pallas_call's input windows 2 and 3. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) :=
        (W6_arr m ρ c 2).trans (((dat0 (V5 m ρ) c).arrAt_in 2 rfl _).trans (A_eq0 (V5 m ρ) c 2))
    _ = m ((c : Thread nD τ).loc main_arg1) := W5_of_host m ρ c main_arg1 (by decide) (by decide) (by decide) (by decide) (by decide)
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) :=
        (W6_arr m ρ c 3).trans (((dat0 (V5 m ρ) c).arrAt_in 3 rfl _).trans (A_eq0 (V5 m ρ) c 3))
    _ = m ((c : Thread nD τ).loc main_arg2) := W5_of_host m ρ c main_arg2 (by decide) (by decide) (by decide) (by decide) (by decide)

/-- Gamma and beta: the second pallas_call's input windows 1 and 2; the first pallas_call does not touch them. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) :=
        (W7_arr m ρ c 1).trans (((dat1 (V6 m ρ) c).arrAt_in 1 rfl _).trans (A_eq1 (V6 m ρ) c 1))
    _ = W5 m ρ c (Proc.devRef .tc main_arg3) := W6_of_ne m ρ c main_arg3 (by decide)
    _ = m ((c : Thread nD τ).loc main_arg3) := W5_of_host m ρ c main_arg3 (by decide) (by decide) (by decide) (by decide) (by decide)
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) :=
        (W7_arr m ρ c 2).trans (((dat1 (V6 m ρ) c).arrAt_in 2 rfl _).trans (A_eq1 (V6 m ρ) c 2))
    _ = W5 m ρ c (Proc.devRef .tc main_arg4) := W6_of_ne m ρ c main_arg4 (by decide)
    _ = m ((c : Thread nD τ).loc main_arg4) := W5_of_host m ρ c main_arg4 (by decide) (by decide) (by decide) (by decide) (by decide)

/-- The two edge-index arrays: read by host stretches only; no pallas_call has a window on them. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = m ((c : Thread nD τ).loc main_arg5) := W5_of_host m ρ c main_arg5 (by decide) (by decide) (by decide) (by decide) (by decide)
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = m ((c : Thread nD τ).loc main_arg6) := W5_of_host m ρ c main_arg6 (by decide) (by decide) (by decide) (by decide) (by decide)

/-! ## The proof data of the two pipelines, and what rides beside the buffers -/

/-- Every pipeline's proof data, each at the contents its pallas_call is entered from: a literal `match`, so that the
    library's configuration of pipeline `p` at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
/-- The kernels call nothing recursive: no variant is needed. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every piece: the core's generator register at some state (a pallas_call's
    invariant takes it in and gives it back) and the record of what the core owes, which is nothing. -/
abbrev R (c : Dev nD) : sProp 𝕄 := iprop((∃ r, prngReg c r) ∗ ∃ W, owes (c : Thread nD τ) (0 : CellTallies nD τ sig Unit) W)
/-- A host stretch as a segment: from every unscoped buffer at the contents `W` to every unscoped buffer at
    `StableHlo.after ops (W c)` — the next boundary's contents by name —, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds: what reads a buffer out of `run_all`. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of dues: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The pallas_calls as segments

A pallas_call is entered from the thread state "every unscoped buffer at the boundary's contents, `R`". Entering
splits the pipeline's arrays off the unscoped buffers (the rest `Z` bypasses the pallas_call), hands the generator
register (`X`) and the scoped buffers to the pipeline's invariant, and keeps the record of dues. Leaving does the
reverse: the invariant gives the register back (`Y`), and the arrays, now at what the write-backs left, rejoin the rest
as "every unscoped buffer at the next boundary's contents" — which is how `W6` and `W7` were defined. -/

set_option backward.isDefEq.respectTransparency.types false in
/-- The NORMALISATION pallas_call: entered at `W6`, left at `W7`. Its invariant is the constant one (the scoped buffers
    and the generator register), so entering and leaving it only reorder the conjuncts. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The statistics pallas_call, from three facts about its body

Its invariant is not constant: between tiles the kernel keeps the two running sums in scratch memory, so the invariant
before tile `t` names their contents. What this file needs of that kernel is stated here as three hypotheses and proved
elsewhere: the body's obligation at every tile, that the constant invariant (scoped buffers at anything, generator
register at some state) implies the invariant before the first tile, and that the invariant after the last tile implies
the constant one again (the accumulators' contents forgotten). -/

/-- The body's obligation at every tile, whatever the pallas_call is entered from. -/
abbrev Hbody0 : Prop := ∀ (V : (c : Dev nD) → (b : Ref sig .tc) → Buf (Elt F) ((c : Thread nD τ).loc b)) (c : Dev nD),
  BodyObligation (dat0 (F := F) V c) (defs₀ (F := F)) Variants.none () Set.univ
/-- The constant invariant implies the invariant before the first tile. -/
abbrev Hin0 : Prop := ∀ (V : (c : Dev nD) → (b : Ref sig .tc) → Buf (Elt F) ((c : Thread nD τ).loc b)) (c : Dev nD),
  (Pipeline.ΦA spec0 c : sProp 𝕄) ⊢ (dat0 (F := F) V c).Φ 0
/-- The invariant after the last tile implies the constant one. -/
abbrev Hout0 : Prop := ∀ (V : (c : Dev nD) → (b : Ref sig .tc) → Buf (Elt F) ((c : Thread nD τ).loc b)) (c : Dev nD),
  (dat0 (F := F) V c).Φ (Fin.last cfg0.N) ⊢ (Pipeline.ΦA spec0 c : sProp 𝕄)

set_option backward.isDefEq.respectTransparency.types false in
/-- The STATISTICS pallas_call: entered at `W5`, left at `W6`. Entering makes the constant invariant out of the register
    and the scoped buffers and then passes to the invariant before the first tile (`hin0`); leaving passes from the
    invariant after the last tile back to the constant one (`hout0`) and takes it apart again. -/
def reg0 (hbody0 : Hbody0 (F := F)) (hin0 : Hin0 (F := F)) (hout0 : Hout0 (F := F)) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hbody0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the register and the scoped buffers make the constant invariant, which implies the one before the first tile
    refine .trans ?_ (hin0 (V5 m ρ) c)
    unfold Pipeline.ΦA
    iintro ⟨Hp, -, Hr⟩
    isplitl [Hr]; · iexact Hr
    iexact Hp
  hout c := by
    -- the invariant after the last tile implies the constant one, which is the scoped buffers and the register
    refine .trans (hout0 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven segments in order: a host segment per stretch, each from its boundary's contents, then the two pallas_calls. -/
abbrev segs (hbody0 : Hbody0 (F := F)) (hin0 : Hin0 (F := F)) (hout0 : Hout0 (F := F)) :
    List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ hbody0 hin0 hout0),
    .region (reg1 m ρ) ]

/-- The program IS the run of the segments: it is the chain of its seven items, and so is the segments' run. -/
theorem main_run (hbody0 : Hbody0 (F := F)) (hin0 : Hin0 (F := F)) (hout0 : Hout0 (F := F)) (c : Dev nD) : main (F := F) c = Pipeline.Seg.run (segs m ρ hbody0 hin0 hout0) :=
  (main_chain c).trans (by chain_rfl)

set_option backward.isDefEq.respectTransparency.types false in
/-- THE RUN. From any launch memory `m` with every semaphore at zero, every weakly fair execution of the program on the
    TensorCores terminates without a fault, and in every final state each unscoped buffer of each core holds what the
    last valuation `W7` names. The thread states chain by construction (each segment's post is the next one's pre, word
    for word); the launch deals the first one; the last one, held beside the final state, reads every buffer. -/
theorem run_all (hbody0 : Hbody0 (F := F)) (hin0 : Hin0 (F := F)) (hout0 : Hout0 (F := F)) :
    θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ hbody0 hin0 hout0)
    (fun c Q => by rw [main_run m ρ hbody0 hin0 hout0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Hand

end
-- ==== Proof.Spec.lean ====
/-
  The mathematics both programs compute, stated with no program in sight.

  A graph-convolution layer followed by batch normalisation over the nodes. With `a` the aggregated
  features, `x` the node features and `w`, `wr` the two weight matrices, the activation of node `r`
  in channel `j` is

      act a x w wr r j = max (∑ₖ a(r,k)·w(k,j)) 0 + max (∑ₖ x(r,k)·wr(k,j)) 0 ,

  and from the channel's sum `s = ∑ᵣ g(r,j)` and sum of squares `q = ∑ᵣ g(r,j)²` over all nodes the
  normalised entry is

      bn s q γ β g = (γ·(g − s/n))·(q/n − (s/n)² + ε)^(-1/2) + β ,

  `n` the node count and `ε` the stabiliser, both kept as the binary32 words the programs print.
  Everything is on the extended reals; the row count of `act` is a parameter so that the same
  definition reads a tile of rows and the whole array.
-/
import Idealize.ShloMosaic.PureOps.Ideal
import Idealize.ShloMosaic.Lib.ValueIdx

noncomputable section

open scoped BigOperators

namespace Cert.Spec

open Idealize.ShloMosaic Idealize.ShloMosaic.ValueIdx

/-- One activation entry: the two matrix products of row `r` with column `j`, each clamped below at zero, added. -/
def act {n : Nat} (a x : (⟨2, ![n, 128]⟩ : Shape).Idx → EReal) (w wr : (⟨2, ![128, 128]⟩ : Shape).Idx → EReal)
    (r : Fin n) (j : Fin 128) : EReal :=
  max (∑ k : Fin 128, a (ix2 r k) * w (ix2 k j)) 0 + max (∑ k : Fin 128, x (ix2 r k) * wr (ix2 k j)) 0

/-- The node count 50000 as the programs spell it. -/
def cnt : EReal := Ideal.ofBits .f32 0x47435000#32

/-- The stabiliser added to the variance, as the programs spell it. -/
def eps : EReal := Ideal.ofBits .f32 0x3727C5AC#32

/-- A batch-normalised entry from the channel's sum `s`, its sum of squares `q`, the scale `γ`, the shift `β` and the
    entry `g` itself: the mean is `s/n`, the variance `q/n − (s/n)²`. -/
def bn (s q γ β g : EReal) : EReal :=
  (γ * (g - Ideal.div s cnt)) * Ideal.rsqrt (Ideal.div q cnt - Ideal.div s cnt * Ideal.div s cnt + eps) + β

end Cert.Spec

end
-- ==== Proof.PayloadValue.lean ====
/-
  The kernel's arithmetic read at an index, at the ideal instance (a float is an extended real, every
  operation exact, a change of format the identity).

  Region 0, per tile of 5000 rows: the stored activation at (p, j) is
      max (∑ₖ a(p,k)·w(k,j)) 0 + max (∑ₖ x(p,k)·wr(k,j)) 0        (`pay4_apply`),
  the two statistics rows start at 0 (`pay2_apply`, `pay3_apply`), and each tile adds to them the column
  sums over its 5000 rows of the activation and of its square (`pay5_apply`, `pay6_apply`).
  Region 1: the stored entry at (p, j) is the batch-normalised activation, mean s/n and variance
  q/n − (s/n)² taken from the two statistics rows (`norm_apply`).

  Every non-pointwise operation is read once, in a small lemma over variables of the literal vector types
  with the index given by coordinates: the matrix product into a zero accumulator as the sum over the one
  contracted coordinate (`matmul_read`), the reduction over the rows as the sum over the row coordinate
  (`colsum_read`), the cast of a lane vector to a one-row matrix (`lane_read`) and the broadcast of one row
  over all rows (`row_read`). The pointwise operations read through definitionally.
-/
import proofs.«168652_j88974542504681_1_alg».proof.Proof.Gen.KernelIdeal.Skeleton
import proofs.«168652_j88974542504681_1_alg».proof.Proof.Spec
import Idealize.ShloMosaic.Lib.ValueIdx
import Idealize.ShloMosaic.Lib.ValueLayout
import Idealize.ShloMosaic.Lib.Pipeline.Value
import Idealize.ShloMosaic.PureOps.Ideal.Laws
noncomputable section
open scoped BigOperators
namespace Cert.KernelIdeal.PayloadValue
open Idealize.ShloMosaic Idealize.ShloMosaic.ValueIdx Cert.KernelIdeal Cert.KernelIdeal.Gen

/-! ## The non-pointwise operations, each read at an index given by coordinates -/

/-- The matrix product's dimension numbers: a `[5000,128]` left operand and a `[128,128]` right operand, the left
    operand's axis 1 contracted with the right operand's axis 0. -/
abbrev dotDims : DotDims S5000x128 S128x128 S5000x128 := dot_S5000x128_S128x128_S5000x128_1_0_0_1_n_n

/-- On its row axis (not contracted) the left operand's index is the output index's row. -/
theorem lhs_row (i : S5000x128.Idx) (q : dotDims.contr.Idx) : (dotDims.lhsIdx i q 0).val = (i 0).val := by
  unfold DotDims.lhsIdx
  rw [dif_neg (show ¬(0 : Fin S5000x128.rank) ∈ dotDims.lhsBatch by decide),
    dif_pos (show (0 : Fin S5000x128.rank) ∈ dotDims.lhsNonContracting by decide)]
  rfl

/-- On its column axis (the contracted one) the left operand's index is the contraction position. -/
theorem lhs_col (i : S5000x128.Idx) (q : dotDims.contr.Idx) : (dotDims.lhsIdx i q 1).val = (q ⟨0, by decide⟩).val :=
  dotDims.lhsIdx_val_of_single rfl i q

/-- On its row axis (the contracted one) the right operand's index is the contraction position. -/
theorem rhs_row (i : S5000x128.Idx) (q : dotDims.contr.Idx) : (dotDims.rhsIdx i q 0).val = (q ⟨0, by decide⟩).val :=
  dotDims.rhsIdx_val_of_single rfl i q

/-- On its column axis (not contracted) the right operand's index is the output index's column. -/
theorem rhs_col (i : S5000x128.Idx) (q : dotDims.contr.Idx) : (dotDims.rhsIdx i q 1).val = (i 1).val := by
  unfold DotDims.rhsIdx
  rw [dif_neg (show ¬(1 : Fin S128x128.rank) ∈ dotDims.rhsBatch by decide),
    dif_pos (show (1 : Fin S128x128.rank) ∈ dotDims.rhsNonContracting by decide)]
  rfl

/-- A MATRIX PRODUCT INTO THE ZERO ACCUMULATOR, read at `(p, j)`: `∑ₖ l(p,k)·r(k,j)`. The contraction index set has
    one axis of extent 128; the sum over it is re-indexed through that axis's coordinate. -/
theorem matmul_read (l : FVec Ideal S5000x128 .bf16) (r : FVec Ideal S128x128 .bf16) (p : Fin 5000) (j : Fin 128) :
    matmul dotDims none l r (constant (F := Ideal) S5000x128 .f32 0x00000000#32) (ix2 p j)
      = ∑ k : Fin 128, l (ix2 p k) * r (ix2 k j) := by
  refine (Ideal.matmul_constant_zero_apply dotDims none l r (ix2 p j)).trans ?_
  rw [← Equiv.sum_comp (contrEquiv1 dotDims 128 rfl rfl).symm]
  refine Finset.sum_congr rfl fun k _ => ?_
  have hk := contrEquiv1_symm_val dotDims 128 rfl rfl k
  have el : dotDims.lhsIdx (ix2 p j) ((contrEquiv1 dotDims 128 rfl rfl).symm k) = ix2 p k := funext fun a => Fin.ext (by
    match a with
    | ⟨0, _⟩ => exact lhs_row _ _
    | ⟨1, _⟩ => exact (lhs_col _ _).trans hk)
  have er : dotDims.rhsIdx (ix2 p j) ((contrEquiv1 dotDims 128 rfl rfl).symm k) = ix2 k j := funext fun a => Fin.ext (by
    match a with
    | ⟨0, _⟩ => exact (rhs_row _ _).trans hk
    | ⟨1, _⟩ => exact rhs_col _ _)
  rw [el, er]

/-- THE SUM OVER THE ROWS, read at lane `j`: `∑ₚ g(p,j)`. (The accumulator hypothesis is stated as the
    equation the operation itself carries: the zero word equals the zero word.) -/
theorem colsum_read (g : FVec Ideal S5000x128 .f32) (h : S5000x128.Reduces [0] S128) (hφ : FKind.Formats .f32)
    (hacc : (0x00000000#32 : BitVec 32) = 0x00000000#32) (j : Fin 128) :
    multiReduction (F := Ideal) .add [0] S128 g 0x00000000#32 h hφ hacc (ix1 j) = ∑ p : Fin 5000, g (ix2 p j) := by
  refine (Ideal.multiReduction_add_single g 0x00000000#32 h hφ hacc (ix1 j)).trans ?_
  show ∑ p : Fin 5000, g (h.lift (ix1 j) p) = ∑ p : Fin 5000, g (ix2 p j)
  refine Finset.sum_congr rfl fun p _ => congrArg g (funext fun c => Fin.ext ?_)
  match c with
  | ⟨0, _⟩ => rfl
  | ⟨1, _⟩ => rfl

/-- A lane vector cast to a one-row matrix reads, at `(0, j)`, the vector at `j`. -/
theorem lane_read (v : FVec Ideal S128 .f32) (h : S128.ShapeCasts S1x128) (j : Fin 128) :
    shapeCast S1x128 v h (ix2 (0 : Fin 1) j) = v (ix1 j) :=
  shapeCast_a_1a_apply v h 0 j

/-- One row broadcast over 5000 rows reads, at `(p, j)`, the row at `j`. -/
theorem row_read (v : FVec Ideal S1x128 .f32) (h : S1x128.Broadcasts S5000x128) (p : Fin 5000) (j : Fin 128) :
    broadcastTo S5000x128 v h (ix2 p j) = v (ix2 (0 : Fin 1) j) :=
  broadcastTo_1b_ab_apply v h p j

/-! ## Region 0: the activation tile and the two statistics rows -/

/-- THE ACTIVATION at row `p`, channel `j` of a tile: both products are read by `matmul_read` (the narrowing of
    the operands is the identity), each clamped below at the zero word's value 0, and added. -/
theorem pay4_apply (a x : Vec Ideal S5000x128 .f32) (w wr : Vec Ideal S128x128 .f32) (p : Fin 5000) (j : Fin 128) :
    k0_pay4 (F := Ideal) a x w wr (ix2 p j) = Cert.Spec.act a x w wr p j := by
  unfold k0_pay4
  -- the cast of a [5000,128] vector to its own shape is the identity
  simp only [shapeCast_self]
  -- the outer operations are pointwise: a sum of two maxima, each against the broadcast zero word
  rw [addf_apply, maximumf_apply, maximumf_apply]
  -- under each maximum, the product into the zero accumulator is the sum over the contracted coordinate
  refine (congrArg₂ (fun u v => max u (Ideal.ofBits .f32 0x00000000#32) + max v (Ideal.ofBits .f32 0x00000000#32))
    (matmul_read _ _ p j) (matmul_read _ _ p j)).trans ?_
  -- the zero word is the extended real 0, and narrowing an operand does not change its entries
  rw [Ideal.ofBits_zero_f32]
  rfl

/-- The first statistics row is reset to the zero word's value, 0. -/
theorem pay2_apply (j : Fin 128) : k0_pay2 (F := Ideal) (ix2 (0 : Fin 1) j) = 0 := by
  unfold k0_pay2
  rw [shapeCast_self]
  exact Ideal.ofBits_zero_f32

/-- The second statistics row likewise. -/
theorem pay3_apply (j : Fin 128) : k0_pay3 (F := Ideal) (ix2 (0 : Fin 1) j) = 0 := by
  unfold k0_pay3
  rw [shapeCast_self]
  exact Ideal.ofBits_zero_f32

/-- A tile adds to the first statistics row, in channel `j`, the sum over its 5000 rows of the activation. -/
theorem pay5_apply (a x : Vec Ideal S5000x128 .f32) (w wr : Vec Ideal S128x128 .f32) (acc : Vec Ideal S1x128 .f32) (j : Fin 128) :
    k0_pay5 (F := Ideal) a x w wr acc (ix2 (0 : Fin 1) j) = acc (ix2 (0 : Fin 1) j) + ∑ p : Fin 5000, Cert.Spec.act a x w wr p j := by
  unfold k0_pay5
  simp only [shapeCast_self]
  -- old row + (row sums cast to a one-row matrix), at (0, j)
  rw [addf_apply]
  refine congrArg (acc (ix2 (0 : Fin 1) j) + ·) ?_
  -- the cast reads the lane vector at j, the lane vector is the sum over the rows, and each term is the activation
  refine (lane_read _ _ j).trans ?_
  refine (colsum_read _ _ _ _ j).trans ?_
  exact Finset.sum_congr rfl fun p _ => pay4_apply a x w wr p j

/-- A tile adds to the second statistics row, in channel `j`, the sum over its 5000 rows of the activation's square. -/
theorem pay6_apply (a x : Vec Ideal S5000x128 .f32) (w wr : Vec Ideal S128x128 .f32) (acc : Vec Ideal S1x128 .f32) (j : Fin 128) :
    k0_pay1 (F := Ideal) (k0_pay6 (F := Ideal) a x w wr acc) (ix2 (0 : Fin 1) j)
      = acc (ix2 (0 : Fin 1) j) + ∑ p : Fin 5000, Cert.Spec.act a x w wr p j * Cert.Spec.act a x w wr p j := by
  unfold k0_pay1 k0_pay6
  simp only [shapeCast_self]
  -- old row + (row sums of the squared tile, cast to a one-row matrix), at (0, j)
  rw [addf_apply]
  refine congrArg (acc (ix2 (0 : Fin 1) j) + ·) ?_
  refine (lane_read _ _ j).trans ?_
  refine (colsum_read _ _ _ _ j).trans ?_
  -- the squared tile is pointwise the activation times itself
  refine Finset.sum_congr rfl fun p _ => ?_
  rw [mulf_apply, pay4_apply a x w wr p j]

/-! ## Region 1: the normalisation -/

/-- THE NORMALISED ENTRY at `(p, j)`: the mean `s/n`, the reciprocal square root of `q/n − (s/n)² + ε`, the scale and
    the shift are rows (or lane vectors cast to rows) broadcast over the tile's rows, so each reads at channel `j`;
    the rest is pointwise. -/
theorem norm_apply (s q : Vec Ideal S1x128 .f32) (γ β : Vec Ideal S128 .f32) (g : Vec Ideal S5000x128 .f32) (p : Fin 5000) (j : Fin 128) :
    k1_pay1 (F := Ideal) s q γ g β (ix2 p j)
      = Cert.Spec.bn (s (ix2 (0 : Fin 1) j)) (q (ix2 (0 : Fin 1) j)) (γ (ix1 j)) (β (ix1 j)) (g (ix2 p j)) := by
  unfold k1_pay1
  simp only [shapeCast_self]
  -- (γ-row · (g − mean-row)) · rsqrt-row + β-row, pointwise at (p, j); each broadcast row reads at (0, j), and the
  -- two rows cast from lane vectors read those vectors at j
  rw [addf_apply, mulf_apply, mulf_apply, subf_apply, row_read, row_read, row_read, row_read, lane_read, lane_read]
  -- what is left is pointwise on the one statistics row: the quotients by the count word, their difference, the
  -- stabiliser word added, the reciprocal square root
  show γ (ix1 j) * (g (ix2 p j) - Ideal.div (s (ix2 (0 : Fin 1) j)) Cert.Spec.cnt)
        * Ideal.rsqrt (Ideal.div (q (ix2 (0 : Fin 1) j)) Cert.Spec.cnt
            - Ideal.div (s (ix2 (0 : Fin 1) j)) Cert.Spec.cnt * Ideal.div (s (ix2 (0 : Fin 1) j)) Cert.Spec.cnt + Cert.Spec.eps)
      + β (ix1 j) = _
  rfl

end Cert.KernelIdeal.PayloadValue
end
-- ==== Proof.LibBlockSum.lean ====
import Mathlib.Algebra.BigOperators.Fin
import Mathlib.Logic.Equiv.Fin.Basic

/-!
# A sum over `Fin (k * n)`, taken block by block

A contraction over `k * n` terms may be computed as `k` partial sums of `n` consecutive terms each, added up in
any order: in a commutative monoid the total does not depend on the grouping. Cut `Fin (k * n)` into `k`
consecutive blocks of length `n`; term `s` of block `b` is the term at position `s + n * b`.

Nothing here needs the terms to be finite: only commutativity and associativity of `+` are used, so the lemmas
hold on the extended reals as they stand.
-/

namespace BlockSum

/-- Position `s` inside block `b`, as a position of the whole range: `s + n * b`. -/
def idx {k n : ℕ} (b : Fin k) (s : Fin n) : Fin (k * n) := finProdFinEquiv (b, s)

/-- The position's value. -/
theorem idx_val {k n : ℕ} (b : Fin k) (s : Fin n) : (idx b s).val = s.val + n * b.val := rfl

/-- The whole sum is the sum over the blocks of each block's own sum. -/
theorem sum_eq_sum_blocks {M : Type*} [AddCommMonoid M] {k n : ℕ} (f : Fin (k * n) → M) :
    ∑ t, f t = ∑ b : Fin k, ∑ s : Fin n, f (idx b s) :=
  calc ∑ t, f t = ∑ p : Fin k × Fin n, f (finProdFinEquiv p) := (Equiv.sum_comp finProdFinEquiv f).symm
    _ = ∑ b : Fin k, ∑ s : Fin n, f (idx b s) := Fintype.sum_prod_type _

/-- Four partial sums added one after the other onto a zero start are their total. -/
theorem acc_four {M : Type*} [AddCommMonoid M] (T : Fin 4 → M) : 0 + T 0 + T 1 + T 2 + T 3 = ∑ b, T b := by
  rw [Fin.sum_univ_four, zero_add]

end BlockSum
-- ==== Proof.KernelValue.lean ====
/-
  From blocks to the arrays: what each output array holds after all ten tiles, index by index, at the ideal
  instance and in the specification's words.

  First region (ten tiles of 5000 rows). The activations array ends holding, at row r and channel j,
      act a x w wr r j                                                         (`acts_array`)
  of the whole feature arrays and weight matrices: tile t writes back its 5000 rows, which are the specification's
  activation at rows 5000·t … 5000·t + 4999 because the tile's input blocks are those rows of the feature arrays and
  the whole weight matrices; the ten blocks tile the array. The statistics array ends holding, in channel j,
      row 0:  ∑ᵣ act a x w wr r j ,      row 1:  ∑ᵣ (act a x w wr r j)²        (`stats_array_sum`, `stats_array_sq`)
  over all 50000 rows: it is written back once, after the last tile, from two accumulators that start at 0 and gain
  one tile's column sums per tile (an induction on the tile), and ten consecutive partial sums of 5000 terms are the
  whole sum.

  Second region. The normalised array ends holding, at row r and channel j,
      bn s(j) q(j) γ(j) β(j) g(r, j)                                           (`out_array`)
  of the statistics rows s, q, the scale γ, the shift β and the activations array g as the region finds them: tile
  t's output block is the normalisation of its activations block, whose rows are rows 5000·t … of g, by the whole
  statistics array, scale and shift.

  Everything is stated at a parameter `V`, the buffers' contents when the region is entered.
-/
import proofs.«168652_j88974542504681_1_alg».proof.Proof.Region0Data
import proofs.«168652_j88974542504681_1_alg».proof.Proof.Region1
import proofs.«168652_j88974542504681_1_alg».proof.Proof.PayloadValue
import proofs.«168652_j88974542504681_1_alg».proof.Proof.Spec
import proofs.«168652_j88974542504681_1_alg».proof.Proof.LibBlockSum
import Idealize.ShloMosaic.Lib.Pipeline.Value
import Idealize.ShloMosaic.Lib.ValueIdx
noncomputable section
open scoped BigOperators
namespace Cert.KernelIdeal.KernelValue
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayloadValue

variable (V : (c : Dev nD) → (b : Ref sig .tc) → Buf (Elt Ideal) ((c : Thread nD τ).loc b))

/-! ## Small facts used throughout -/

theorem hz2 : (![0, 0] : Fin 2 → Nat) = fun _ => 0 := funext fun a => by fin_cases a <;> rfl
theorem hz1 : (![0] : Fin 1 → Nat) = fun _ => 0 := funext fun a => by fin_cases a; rfl

/-- Row `p` of tile `t` is row `5000·t + p` of the whole array, which has 50000 rows (first region). -/
theorem row0_lt (t : Fin cfg0.N) (p : Fin 5000) : 5000 * t.val + p.val < 50000 := by
  have hN : cfg0.N = 10 := N_0
  have := t.isLt; have := p.isLt; omega

/-- The same in the second region. -/
theorem row1_lt (t : Fin cfg1.N) (p : Fin 5000) : 5000 * t.val + p.val < 50000 := by
  have hN : cfg1.N = 10 := N_1
  have := t.isLt; have := p.isLt; omega

/-- An activation entry depends only on row `r` of the two feature arrays and column `j` of the two weight matrices:
    two sets of arrays that agree there (possibly with different row counts) give the same entry. -/
theorem act_congr {n n' : Nat} (a x : (⟨2, ![n, 128]⟩ : Shape).Idx → EReal) (a' x' : (⟨2, ![n', 128]⟩ : Shape).Idx → EReal)
    (w wr w' wr' : (⟨2, ![128, 128]⟩ : Shape).Idx → EReal) (p : Fin n) (r : Fin n') (j : Fin 128)
    (ha : ∀ k, a (ix2 p k) = a' (ix2 r k)) (hx : ∀ k, x (ix2 p k) = x' (ix2 r k))
    (hw : ∀ k, w (ix2 k j) = w' (ix2 k j)) (hwr : ∀ k, wr (ix2 k j) = wr' (ix2 k j)) :
    Cert.Spec.act a x w wr p j = Cert.Spec.act a' x' w' wr' r j := by
  unfold Cert.Spec.act
  simp only [ha, hx, hw, hwr]

/-! ## The first region: where each window's block sits in its array -/

/-- The first region's index maps, decided once over the ten tiles: the two feature windows and the activations window
    move one block down per tile; the weight windows and the statistics window stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The aggregated features' block at tile `t`, at `(p, k)`: the array at row `5000·t + p`. -/
theorem iblk0_0_apply (c : Dev nD) (t : Fin cfg0.N) (p : Fin 5000) (k : Fin 128) :
    (iblk0 V c 0 t : S5000x128.Idx → EReal) (ix2 p k) = (V c main_v26 : S50000x128.Idx → EReal) (ix2 ⟨5000 * t.val + p.val, row0_lt t p⟩ k) := by
  obtain ⟨e0, e1, -⟩ := idx_facts0 t
  unfold iblk0
  rw [View.read_apply]
  show (V c main_v26 : S50000x128.Idx → EReal) (((cfg0.win 0).blk t).view.emb (ix2 p k)) = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The node features' block likewise. -/
theorem iblk0_1_apply (c : Dev nD) (t : Fin cfg0.N) (p : Fin 5000) (k : Fin 128) :
    (iblk0 V c 1 t : S5000x128.Idx → EReal) (ix2 p k) = (V c main_arg0 : S50000x128.Idx → EReal) (ix2 ⟨5000 * t.val + p.val, row0_lt t p⟩ k) := by
  obtain ⟨-, -, e0, e1, -⟩ := idx_facts0 t
  unfold iblk0
  rw [View.read_apply]
  show (V c main_arg0 : S50000x128.Idx → EReal) (((cfg0.win 1).blk t).view.emb (ix2 p k)) = _
  refine congrArg _ (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The first weight matrix's block is the whole matrix at every tile. -/
theorem iblk0_2_apply (c : Dev nD) (t : Fin cfg0.N) (k : Fin 128) (j : Fin 128) :
    (iblk0 V c 2 t : S128x128.Idx → EReal) (ix2 k j) = (V c main_arg1 : S128x128.Idx → EReal) (ix2 k j) := by
  obtain ⟨-, -, -, -, e0, e1, -⟩ := idx_facts0 t
  unfold iblk0
  rw [View.read_apply]
  show (V c main_arg1 : S128x128.Idx → EReal) (((cfg0.win 2).blk t).view.emb (ix2 k j)) = _
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The second weight matrix's block likewise. -/
theorem iblk0_3_apply (c : Dev nD) (t : Fin cfg0.N) (k : Fin 128) (j : Fin 128) :
    (iblk0 V c 3 t : S128x128.Idx → EReal) (ix2 k j) = (V c main_arg2 : S128x128.Idx → EReal) (ix2 k j) := by
  obtain ⟨-, -, -, -, -, -, e0, e1, -⟩ := idx_facts0 t
  unfold iblk0
  rw [View.read_apply]
  show (V c main_arg2 : S128x128.Idx → EReal) (((cfg0.win 3).blk t).view.emb (ix2 k j)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-! ## The activations array -/

/-- What the activations array ends holding: the specification's activation of the whole arrays, index by index. -/
def actsOf (c : Dev nD) : S50000x128.Idx → EReal := fun i =>
  Cert.Spec.act (V c main_v26) (V c main_arg0) (V c main_arg1) (V c main_arg2) (i 0) (i 1)

/-- Tile `t`'s activation at `(p, j)` is the whole arrays' activation at row `5000·t + p`: the tile's blocks are those
    rows of the feature arrays and the whole weight matrices. -/
theorem tile_act (c : Dev nD) (t : Fin cfg0.N) (p : Fin 5000) (j : Fin 128) :
    Cert.Spec.act (iblk0 V c 0 t) (iblk0 V c 1 t) (iblk0 V c 2 t) (iblk0 V c 3 t) p j
      = actsOf V c (ix2 ⟨5000 * t.val + p.val, row0_lt t p⟩ j) :=
  act_congr _ _ _ _ _ _ _ _ p _ j (fun k => iblk0_0_apply V c t p k) (fun k => iblk0_1_apply V c t p k)
    (fun k => iblk0_2_apply V c t k j) (fun k => iblk0_3_apply V c t k j)

/-- Where the activations window's block at tile `t` puts its element `(p, j)`: row `5000·t + p`. -/
theorem emb0_4 (t : Fin cfg0.N) (p : Fin 5000) (j : Fin 128) :
    ((cfg0.win 4).blk t).view.emb (ix2 p j) = (ix2 ⟨5000 * t.val + p.val, row0_lt t p⟩ j : S50000x128.Idx) := by
  obtain ⟨-, -, -, -, -, -, -, -, e0, e1, -⟩ := idx_facts0 t
  refine funext fun a => Fin.ext ?_
  match a with
  | ⟨0, _⟩ => show win0_4.index t (0 : Fin 2) * 5000 + 1 * p.val = 5000 * t.val + p.val; rw [e0]; omega
  | ⟨1, _⟩ => show win0_4.index t (1 : Fin 2) * 128 + 1 * j.val = j.val; rw [e1]; omega

/-- WHAT TILE `t` WRITES BACK to the activations array is block `t` of `actsOf`. -/
theorem flushed0_4 (c : Dev nD) (t : Fin cfg0.N) :
    (dat0 V c).flushed 4 t = ((cfg0.win 4).blk t).view.read (Elt Ideal) (actsOf V c) := by
  show (cfg0.win 4).cut (grid0.coords t) ((dat0 V c).after 4 t) = _
  rw [after0_4]
  funext y
  obtain ⟨p, j, rfl⟩ : ∃ (p : Fin 5000) (j : Fin 128), y = ix2 p j := ⟨y 0, y 1, eq_ix2 y⟩
  rw [View.read_apply]
  show tileAt V c t (ix2 p j) = actsOf V c (((cfg0.win 4).blk t).view.emb (ix2 p j))
  rw [emb0_4]
  unfold tileAt
  exact (pay4_apply _ _ _ _ p j).trans (tile_act V c t p j)

/-- An index of the activations array is in tile `t`'s block iff each coordinate is in the block's range. -/
theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v27_0).slice (win0_4.rect t)).set ↔ _
  rw [View.set_slice_whole, Rect.mem_set_unit]
  exact Iff.rfl

/-- Row `r` is covered by tile `r / 5000`, which writes back (every tile does). -/
theorem covered0_4 (i : S50000x128.Idx) : ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  refine ⟨⟨(i 0).val / 5000, by omega⟩, flush0_4 _, ?_⟩
  rw [mem_blk0_4]
  obtain ⟨-, -, -, -, -, -, -, -, e0, e1, -⟩ := idx_facts0 ⟨(i 0).val / 5000, by omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- THE ACTIVATIONS ARRAY after the ten tiles: the specification's activation, index by index. -/
theorem acts_array (c : Dev nD) (r : Fin 50000) (j : Fin 128) :
    (dat0 V c).arrAt 4 cfg0.N (ix2 r j) = Cert.Spec.act (V c main_v26) (V c main_arg0) (V c main_arg1) (V c main_arg2) r j :=
  congrFun ((dat0 V c).arrAt_eq_of_cover 4 (actsOf V c) (fun t _ => flushed0_4 V c t) covered0_4) (ix2 r j)

/-! ## The second region: the normalised array -/

/-- The second region's index maps over the ten tiles: the activations window and the output window move one block
    down per tile; scale, shift and statistics stay at block 0. -/
theorem idx_facts1 : ∀ t : Fin cfg1.N,
    win1_0.index t (0 : Fin 2) = t.val ∧ win1_0.index t (1 : Fin 2) = 0
    ∧ win1_1.index t (0 : Fin 1) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The activations' block at tile `t`, at `(p, j)`: the array at row `5000·t + p`. -/
theorem iblk1_0_apply (c : Dev nD) (t : Fin cfg1.N) (p : Fin 5000) (j : Fin 128) :
    (iblk1 V c 0 t : S5000x128.Idx → EReal) (ix2 p j) = (V c main_v27_0 : S50000x128.Idx → EReal) (ix2 ⟨5000 * t.val + p.val, row1_lt t p⟩ j) := by
  obtain ⟨e0, e1, -⟩ := idx_facts1 t
  unfold iblk1
  rw [View.read_apply]
  show (V c main_v27_0 : S50000x128.Idx → EReal) (((cfg1.win 0).blk t).view.emb (ix2 p j)) = _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * j.val = j.val; rw [e1]; omega

/-- The scale's block is the whole scale vector at every tile. -/
theorem iblk1_1_apply (c : Dev nD) (t : Fin cfg1.N) (j : Fin 128) :
    (iblk1 V c 1 t : S128.Idx → EReal) (ix1 j) = (V c main_arg3 : S128.Idx → EReal) (ix1 j) := by
  obtain ⟨-, -, e0, -⟩ := idx_facts1 t
  unfold iblk1
  rw [View.read_apply]
  show (V c main_arg3 : S128.Idx → EReal) (((cfg1.win 1).blk t).view.emb (ix1 j)) = _
  refine congrArg _ (funext fun a => Fin.ext ?_)
  match a with
  | ⟨0, _⟩ => show win1_1.index t (0 : Fin 1) * 128 + 1 * j.val = j.val; rw [e0]; omega

/-- The shift's block likewise. -/
theorem iblk1_2_apply (c : Dev nD) (t : Fin cfg1.N) (j : Fin 128) :
    (iblk1 V c 2 t : S128.Idx → EReal) (ix1 j) = (V c main_arg4 : S128.Idx → EReal) (ix1 j) := by
  obtain ⟨-, -, -, e0, -⟩ := idx_facts1 t
  unfold iblk1
  rw [View.read_apply]
  show (V c main_arg4 : S128.Idx → EReal) (((cfg1.win 2).blk t).view.emb (ix1 j)) = _
  refine congrArg _ (funext fun a => Fin.ext ?_)
  match a with
  | ⟨0, _⟩ => show win1_2.index t (0 : Fin 1) * 128 + 1 * j.val = j.val; rw [e0]; omega

/-- The statistics' block is the whole two-row array at every tile. -/
theorem iblk1_3_apply (c : Dev nD) (t : Fin cfg1.N) (u : Fin 2) (j : Fin 128) :
    (iblk1 V c 3 t : S2x128.Idx → EReal) (ix2 u j) = (V c main_v27_1 : S2x128.Idx → EReal) (ix2 u j) := by
  obtain ⟨-, -, -, -, e0, e1, -⟩ := idx_facts1 t
  unfold iblk1
  rw [View.read_apply]
  show (V c main_v27_1 : S2x128.Idx → EReal) (((cfg1.win 3).blk t).view.emb (ix2 u j)) = _
  refine congrArg _ (funext fun a => Fin.ext ?_)
  match a with
  | ⟨0, _⟩ => show win1_3.index t (0 : Fin 2) * 2 + 1 * u.val = u.val; rw [e0]; omega
  | ⟨1, _⟩ => show win1_3.index t (1 : Fin 2) * 128 + 1 * j.val = j.val; rw [e1]; omega

/-- WHAT THE BODY LEAVES in the output buffer, read at `(p, j)`: its one store covers the tile, and the five values
    it loads are row 0 and row 1 of the statistics block, the whole scale and shift vectors and the whole activations
    block; so the entry is the normalisation of the activations block's entry by the statistics' column `j`. -/
theorem out1_4_apply (x0 : Vec Ideal S5000x128 .f32) (x1 x2 : Vec Ideal S128 .f32) (x3 : Vec Ideal S2x128 .f32) (p : Fin 5000) (j : Fin 128) :
    out1_4 x0 x1 x2 x3 (ix2 p j)
      = Cert.Spec.bn (x3 (ix2 (0 : Fin 2) j)) (x3 (ix2 (1 : Fin 2) j)) (x1 (ix1 j)) (x2 (ix1 j)) (x0 (ix2 p j)) := by
  have e0 : View.ld x3 r1_row0 (ix2 (0 : Fin 1) j) = x3 (ix2 (0 : Fin 2) j) :=
    congrArg x3 (funext fun a => Fin.ext (by
      match a with
      | ⟨0, _⟩ => rfl
      | ⟨1, _⟩ => show 0 + 1 * j.val = j.val; omega))
  have e1 : View.ld x3 r1_row1 (ix2 (0 : Fin 1) j) = x3 (ix2 (1 : Fin 2) j) :=
    congrArg x3 (funext fun a => Fin.ext (by
      match a with
      | ⟨0, _⟩ => rfl
      | ⟨1, _⟩ => show 0 + 1 * j.val = j.val; omega))
  unfold out1_4
  rw [View.canon_unit_zero hz2]
  refine (norm_apply _ _ _ _ _ p j).trans ?_
  rw [e0, e1, View.ld_unit_zero (S := S128) hz1, View.ld_unit_zero (S := S128) hz1, View.ld_unit_zero (S := S5000x128) hz2]

/-- What the normalised array ends holding: the specification's normalisation of the activations array by the two
    statistics rows, index by index. -/
def outOf (c : Dev nD) : S50000x128.Idx → EReal := fun i =>
  Cert.Spec.bn ((V c main_v27_1 : S2x128.Idx → EReal) (ix2 (0 : Fin 2) (i 1))) ((V c main_v27_1 : S2x128.Idx → EReal) (ix2 (1 : Fin 2) (i 1)))
    ((V c main_arg3 : S128.Idx → EReal) (ix1 (i 1))) ((V c main_arg4 : S128.Idx → EReal) (ix1 (i 1)))
    ((V c main_v27_0 : S50000x128.Idx → EReal) i)

/-- Where the output window's block at tile `t` puts its element `(p, j)`: row `5000·t + p`. -/
theorem emb1_4 (t : Fin cfg1.N) (p : Fin 5000) (j : Fin 128) :
    ((cfg1.win 4).blk t).view.emb (ix2 p j) = (ix2 ⟨5000 * t.val + p.val, row1_lt t p⟩ j : S50000x128.Idx) := by
  obtain ⟨-, -, -, -, -, -, e0, e1⟩ := idx_facts1 t
  refine funext fun a => Fin.ext ?_
  match a with
  | ⟨0, _⟩ => show win1_4.index t (0 : Fin 2) * 5000 + 1 * p.val = 5000 * t.val + p.val; rw [e0]; omega
  | ⟨1, _⟩ => show win1_4.index t (1 : Fin 2) * 128 + 1 * j.val = j.val; rw [e1]; omega

/-- WHAT TILE `t` WRITES BACK to the normalised array is block `t` of `outOf`. -/
theorem flushed1_4 (c : Dev nD) (t : Fin cfg1.N) :
    (dat1 V c).flushed 4 t = ((cfg1.win 4).blk t).view.read (Elt Ideal) (outOf V c) := by
  show (cfg1.win 4).cut (grid1.coords t) ((dat1 V c).after 4 t) = _
  rw [after1_4]
  funext y
  obtain ⟨p, j, rfl⟩ : ∃ (p : Fin 5000) (j : Fin 128), y = ix2 p j := ⟨y 0, y 1, eq_ix2 y⟩
  rw [View.read_apply]
  show out1_4 (iblk1 V c 0 t) (iblk1 V c 1 t) (iblk1 V c 2 t) (iblk1 V c 3 t) (ix2 p j)
    = outOf V c (((cfg1.win 4).blk t).view.emb (ix2 p j))
  rw [emb1_4]
  refine (out1_4_apply _ _ _ _ p j).trans ?_
  rw [iblk1_0_apply, iblk1_1_apply, iblk1_2_apply, iblk1_3_apply, iblk1_3_apply]
  rfl

/-- An index of the normalised array is in tile `t`'s block iff each coordinate is in the block's range. -/
theorem mem_blk1_4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v28).slice (win1_4.rect t)).set ↔ _
  rw [View.set_slice_whole, Rect.mem_set_unit]
  exact Iff.rfl

/-- Row `r` is covered by tile `r / 5000`, which writes back (every tile does). -/
theorem covered1_4 (i : S50000x128.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  refine ⟨⟨(i 0).val / 5000, by omega⟩, flush1_4 _, ?_⟩
  rw [mem_blk1_4]
  obtain ⟨-, -, -, -, -, -, e0, e1⟩ := idx_facts1 ⟨(i 0).val / 5000, by omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e1]; omega

/-- THE NORMALISED ARRAY after the ten tiles: the specification's normalisation, index by index. -/
theorem out_array (c : Dev nD) (r : Fin 50000) (j : Fin 128) :
    (dat1 V c).arrAt 4 cfg1.N (ix2 r j) = Cert.Spec.bn (V c main_v27_1 (ix2 (0 : Fin 2) j)) (V c main_v27_1 (ix2 (1 : Fin 2) j)) (V c main_arg3 (ix1 j)) (V c main_arg4 (ix1 j)) (V c main_v27_0 (ix2 r j)) :=
  congrFun ((dat1 V c).arrAt_eq_of_cover 4 (outOf V c) (fun t _ => flushed1_4 V c t) covered1_4) (ix2 r j)

/-! ## The statistics array

Its one block is the whole two-row array and only the last tile writes it back; what that tile leaves in the buffer is
the two accumulators' rows after ten tiles. Each accumulator starts at 0 and gains one tile's column sums per tile, so
after the last tile it holds the sum over all ten tiles, which is the sum over all 50000 rows. -/

/-- The last tile is tile 9. -/
theorem last_lt : 9 < cfg0.N := by rw [show cfg0.N = 10 from N_0]; decide

/-- Row 0 of the statistics buffer is the first accumulator's row: the index `(0, j)` lies outside the piece stored
    last (row 1: its first coordinate would have to be at least 1) and is element `(0, j)` of the other. -/
theorem statsOf_row0 (s q : Vec Ideal S1x128 .f32) (j : Fin 128) :
    statsOf s q (ix2 (0 : Fin 2) j) = s (ix2 (0 : Fin 1) j) := by
  have hout : (ix2 (0 : Fin 2) j : S2x128.Idx) ∉ r1_row1.set := by
    rw [Rect.mem_set_unit]
    intro h
    have h0 : 1 ≤ 0 := (h 0).1
    exact absurd h0 (Nat.not_succ_le_zero 0)
  have hin : (ix2 (0 : Fin 2) j : S2x128.Idx) = r1_row0.emb (ix2 (0 : Fin 1) j) :=
    funext fun a => Fin.ext (by
      match a with
      | ⟨0, _⟩ => rfl
      | ⟨1, _⟩ => show j.val = 0 + 1 * j.val; omega)
  show View.canon [⟨r1_row1, q⟩, ⟨r1_row0, s⟩] (ix2 (0 : Fin 2) j) = _
  refine (View.canon_cons_of_not_mem (⟨r1_row1, q⟩ : View.Piece (Elt Ideal) S2x128 .f32) [⟨r1_row0, s⟩] hout).trans ?_
  rw [hin]
  exact View.canon_cons_emb r1_row0 s [] (ix2 (0 : Fin 1) j)

/-- Row 1 is the second accumulator's row: the index `(1, j)` is element `(0, j)` of the piece stored last. -/
theorem statsOf_row1 (s q : Vec Ideal S1x128 .f32) (j : Fin 128) :
    statsOf s q (ix2 (1 : Fin 2) j) = q (ix2 (0 : Fin 1) j) := by
  have hin : (ix2 (1 : Fin 2) j : S2x128.Idx) = r1_row1.emb (ix2 (0 : Fin 1) j) :=
    funext fun a => Fin.ext (by
      match a with
      | ⟨0, _⟩ => rfl
      | ⟨1, _⟩ => show j.val = 0 + 1 * j.val; omega)
  show View.canon [⟨r1_row1, q⟩, ⟨r1_row0, s⟩] (ix2 (1 : Fin 2) j) = _
  rw [hin]
  exact View.canon_cons_emb r1_row1 q [⟨r1_row0, s⟩] (ix2 (0 : Fin 1) j)

/-- What the statistics array ends holding: the two accumulators' rows after the last tile. -/
def statsFinal (c : Dev nD) : S2x128.Idx → EReal := statsOf (sumAt V c 9 last_lt) (sqAt V c 9 last_lt)

/-- The statistics window's block is the whole array: element `(u, j)` sits at `(u, j)`. -/
theorem emb0_5 (t : Fin cfg0.N) (u : Fin 2) (j : Fin 128) :
    ((cfg0.win 5).blk t).view.emb (ix2 u j) = (ix2 u j : S2x128.Idx) := by
  obtain ⟨-, -, -, -, -, -, -, -, -, -, e0, e1⟩ := idx_facts0 t
  refine funext fun a => Fin.ext ?_
  match a with
  | ⟨0, _⟩ => show win0_5.index t (0 : Fin 2) * 2 + 1 * u.val = u.val; rw [e0]; omega
  | ⟨1, _⟩ => show win0_5.index t (1 : Fin 2) * 128 + 1 * j.val = j.val; rw [e1]; omega

/-- WHAT THE ONE WRITE-BACK WRITES, at the last tile: the whole of `statsFinal`. -/
theorem flushed0_5 (c : Dev nD) (t : Fin cfg0.N) (hf : (cfg0.win 5).flush t = true) :
    (dat0 V c).flushed 5 t = ((cfg0.win 5).blk t).view.read (Elt Ideal) (statsFinal V c) := by
  have hN : cfg0.N = 10 := N_0
  have h9 : t.val = 9 := by have := (flush0_5 t).mp hf; have := t.isLt; omega
  obtain rfl : t = ⟨9, last_lt⟩ := Fin.ext h9
  show (cfg0.win 5).cut (grid0.coords ⟨9, last_lt⟩) ((dat0 V c).after 5 ⟨9, last_lt⟩) = _
  rw [after0_5]
  funext y
  obtain ⟨u, j, rfl⟩ : ∃ (u : Fin 2) (j : Fin 128), y = ix2 u j := ⟨y 0, y 1, eq_ix2 y⟩
  rw [View.read_apply]
  show statsOf (sumAt V c 9 _) (sqAt V c 9 _) (ix2 u j) = statsFinal V c (((cfg0.win 5).blk ⟨9, last_lt⟩).view.emb (ix2 u j))
  rw [emb0_5]
  rfl

/-- An index of the statistics array is in the window's block iff each coordinate is in the block's range. -/
theorem mem_blk0_5 (t : Fin cfg0.N) (i : S2x128.Idx) :
    i ∈ ((cfg0.win 5).blk t).view.set ↔ ∀ a : Fin 2, win0_5.index t a * S2x128.size a ≤ (i a).val
      ∧ (i a).val < win0_5.index t a * S2x128.size a + S2x128.size a := by
  show i ∈ ((View.whole main_v27_1).slice (win0_5.rect t)).set ↔ _
  rw [View.set_slice_whole, Rect.mem_set_unit]
  exact Iff.rfl

/-- The last tile's block covers the whole statistics array. -/
theorem covered0_5 (i : S2x128.Idx) : ∃ t : Fin cfg0.N, (cfg0.win 5).flush t = true ∧ i ∈ ((cfg0.win 5).blk t).view.set := by
  have hi0 : (i 0).val < 2 := (i 0).isLt
  have hi1 : (i 1).val < 128 := (i 1).isLt
  refine ⟨⟨9, last_lt⟩, (flush0_5 _).mpr rfl, ?_⟩
  rw [mem_blk0_5]
  obtain ⟨-, -, -, -, -, -, -, -, -, -, e0, e1⟩ := idx_facts0 ⟨9, last_lt⟩
  intro a
  match a with
  | ⟨0, _⟩ =>
    show win0_5.index _ (0 : Fin 2) * 2 ≤ (i 0).val ∧ (i 0).val < win0_5.index _ (0 : Fin 2) * 2 + 2
    rw [e0]; omega
  | ⟨1, _⟩ =>
    show win0_5.index _ (1 : Fin 2) * 128 ≤ (i 1).val ∧ (i 1).val < win0_5.index _ (1 : Fin 2) * 128 + 128
    rw [e1]; omega

/-- The statistics array after the ten tiles. -/
theorem stats_final (c : Dev nD) : (dat0 V c).arrAt 5 cfg0.N = statsFinal V c :=
  (dat0 V c).arrAt_eq_of_cover 5 (statsFinal V c) (flushed0_5 V c) covered0_5

/-- Tile `t`'s contribution to channel `j` of the first statistics row: the sum of the activations over its 5000 rows. -/
def tileSum (c : Dev nD) (j : Fin 128) (t : Fin cfg0.N) : EReal :=
  ∑ p : Fin 5000, actsOf V c (ix2 ⟨5000 * t.val + p.val, row0_lt t p⟩ j)

/-- Its contribution to the second row: the sum of their squares. -/
def tileSq (c : Dev nD) (j : Fin 128) (t : Fin cfg0.N) : EReal :=
  ∑ p : Fin 5000, actsOf V c (ix2 ⟨5000 * t.val + p.val, row0_lt t p⟩ j) * actsOf V c (ix2 ⟨5000 * t.val + p.val, row0_lt t p⟩ j)

/-- THE FIRST ACCUMULATOR after tile `n`, in channel `j`: the contributions of tiles `0 … n` added up. By induction on
    the tile: the accumulator is cleared to 0 before the first tile, and each tile adds its own contribution. -/
theorem sumAt_apply (c : Dev nD) (j : Fin 128) : ∀ (n : ℕ) (h : n < cfg0.N),
    sumAt V c n h (ix2 (0 : Fin 1) j) = ∑ b : Fin (n + 1), tileSum V c j ⟨b.val, Nat.lt_of_lt_of_le b.isLt (Nat.succ_le_of_lt h)⟩
  | 0, h => by
    show k0_pay5 (F := Ideal) (iblk0 V c 0 ⟨0, h⟩) (iblk0 V c 1 ⟨0, h⟩) (iblk0 V c 2 ⟨0, h⟩) (iblk0 V c 3 ⟨0, h⟩)
      (k0_pay2 (F := Ideal)) (ix2 (0 : Fin 1) j) = _
    refine (pay5_apply _ _ _ _ _ j).trans ?_
    rw [pay2_apply, Fin.sum_univ_castSucc (n := 0), Fin.sum_univ_zero]
    exact congrArg (0 + ·) (Finset.sum_congr rfl fun p _ => tile_act V c ⟨0, h⟩ p j)
  | n + 1, h => by
    show k0_pay5 (F := Ideal) (iblk0 V c 0 ⟨n + 1, h⟩) (iblk0 V c 1 ⟨n + 1, h⟩) (iblk0 V c 2 ⟨n + 1, h⟩) (iblk0 V c 3 ⟨n + 1, h⟩)
      (sumAt V c n (Nat.lt_of_succ_lt h)) (ix2 (0 : Fin 1) j) = _
    refine (pay5_apply _ _ _ _ _ j).trans ?_
    rw [sumAt_apply c j n (Nat.lt_of_succ_lt h), Fin.sum_univ_castSucc (n := n + 1)]
    exact congrArg₂ (· + ·) rfl (Finset.sum_congr rfl fun p _ => tile_act V c ⟨n + 1, h⟩ p j)

/-- THE SECOND ACCUMULATOR likewise, with the squares. -/
theorem sqAt_apply (c : Dev nD) (j : Fin 128) : ∀ (n : ℕ) (h : n < cfg0.N),
    sqAt V c n h (ix2 (0 : Fin 1) j) = ∑ b : Fin (n + 1), tileSq V c j ⟨b.val, Nat.lt_of_lt_of_le b.isLt (Nat.succ_le_of_lt h)⟩
  | 0, h => by
    show k0_pay1 (F := Ideal) (k0_pay6 (F := Ideal) (iblk0 V c 0 ⟨0, h⟩) (iblk0 V c 1 ⟨0, h⟩) (iblk0 V c 2 ⟨0, h⟩) (iblk0 V c 3 ⟨0, h⟩)
      (k0_pay3 (F := Ideal))) (ix2 (0 : Fin 1) j) = _
    refine (pay6_apply _ _ _ _ _ j).trans ?_
    rw [pay3_apply, Fin.sum_univ_castSucc (n := 0), Fin.sum_univ_zero]
    exact congrArg (0 + ·) (Finset.sum_congr rfl fun p _ =>
      congrArg₂ (· * ·) (tile_act V c ⟨0, h⟩ p j) (tile_act V c ⟨0, h⟩ p j))
  | n + 1, h => by
    show k0_pay1 (F := Ideal) (k0_pay6 (F := Ideal) (iblk0 V c 0 ⟨n + 1, h⟩) (iblk0 V c 1 ⟨n + 1, h⟩) (iblk0 V c 2 ⟨n + 1, h⟩) (iblk0 V c 3 ⟨n + 1, h⟩)
      (sqAt V c n (Nat.lt_of_succ_lt h))) (ix2 (0 : Fin 1) j) = _
    refine (pay6_apply _ _ _ _ _ j).trans ?_
    rw [sqAt_apply c j n (Nat.lt_of_succ_lt h), Fin.sum_univ_castSucc (n := n + 1)]
    exact congrArg₂ (· + ·) rfl (Finset.sum_congr rfl fun p _ =>
      congrArg₂ (· * ·) (tile_act V c ⟨n + 1, h⟩ p j) (tile_act V c ⟨n + 1, h⟩ p j))

/-- A sum over the 50000 rows, taken tile by tile: ten tiles of 5000 consecutive rows, row `p` of tile `b` being row
    `5000·b + p`. -/
theorem sum_rows_by_tiles (f : Fin 50000 → EReal) :
    ∑ r : Fin 50000, f r = ∑ b : Fin 10, ∑ p : Fin 5000, f ⟨5000 * b.val + p.val, by have := b.isLt; have := p.isLt; omega⟩ := by
  refine (BlockSum.sum_eq_sum_blocks (M := EReal) (k := 10) (n := 5000) f).trans ?_
  refine Finset.sum_congr rfl fun b _ => Finset.sum_congr rfl fun p _ => congrArg f (Fin.ext ?_)
  show (BlockSum.idx b p).val = 5000 * b.val + p.val
  rw [BlockSum.idx_val]; omega

/-- ROW 0 OF THE STATISTICS ARRAY: the column sums of the activations over all 50000 rows. -/
theorem stats_array_sum (c : Dev nD) (j : Fin 128) :
    (dat0 V c).arrAt 5 cfg0.N (ix2 (0 : Fin 2) j) = ∑ r : Fin 50000, Cert.Spec.act (V c main_v26) (V c main_arg0) (V c main_arg1) (V c main_arg2) r j := by
  rw [stats_final]
  show statsOf (sumAt V c 9 last_lt) (sqAt V c 9 last_lt) (ix2 (0 : Fin 2) j) = _
  rw [statsOf_row0, sumAt_apply V c j 9 last_lt]
  exact (sum_rows_by_tiles fun r => actsOf V c (ix2 r j)).symm

/-- ROW 1: the column sums of their squares. -/
theorem stats_array_sq (c : Dev nD) (j : Fin 128) :
    (dat0 V c).arrAt 5 cfg0.N (ix2 (1 : Fin 2) j) = ∑ r : Fin 50000, Cert.Spec.act (V c main_v26) (V c main_arg0) (V c main_arg1) (V c main_arg2) r j * Cert.Spec.act (V c main_v26) (V c main_arg0) (V c main_arg1) (V c main_arg2) r j := by
  rw [stats_final]
  show statsOf (sumAt V c 9 last_lt) (sqAt V c 9 last_lt) (ix2 (1 : Fin 2) j) = _
  rw [statsOf_row1, sqAt_apply V c j 9 last_lt]
  exact (sum_rows_by_tiles fun r => actsOf V c (ix2 r j) * actsOf V c (ix2 r j)).symm

end Cert.KernelIdeal.KernelValue
end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.RefValue.lean ====
/-
  The reference's result, read at an index at the ideal values (a float is an extended real, every operation exact),
  in the form the specification states it.

  The reference is a graph-convolution layer followed by batch normalisation over the nodes. With `agg` the aggregated
  features `D^(-1/2) A D^(-1/2) X`, the activation of node `r` in channel `j` is

      g(r,j) = max (∑ₖ agg(r,k)·W(k,j)) 0 + max (∑ₖ X(r,k)·Wres(k,j)) 0 ,

  and with `s = ∑ᵣ g(r,j)`, `n = 50000` the reference returns

      out(r,j) = γ(j)·(g(r,j) − s/n)·( (∑ᵣ (g(r,j) − s/n)²)/n + ε )^(-1/2) + β(j) .

  The specification writes the variance as `q/n − (s/n)²` with `q = ∑ᵣ g(r,j)²`. Over the reals the two variances are
  equal: expanding the square, `∑ᵣ (g − m)² = q − 2·m·s + n·m²` with `m = s/n`, and dividing by `n` leaves `q/n − m²`.
  On the extended reals the expansion fails at an infinite entry (`⊤ − ⊤`), so the law is applied to real entries
  only; and every `g(r,j)` is real as soon as `X`, `W`, `Wres` are, whatever integers the edge lists hold: a degree is
  zero plus a finite sum of ones, clipped below at one, so its reciprocal square root is real; a gathered row is a row
  of a real array; a scatter adds finitely many real rows to zero; products, finite sums and maxima of reals are real.

  In order: the index equations; the two constants; the stages of the reference read one at a time down to
  `reference_read`; the realness of the aggregated features (`agg_real`) and of the activations (`G_real`); the law
  (`var_real` over ℝ, `var_law` coerced); and `reference_apply`, the reference's entry as `Cert.Spec.bn`.
-/
import proofs.«168652_j88974542504681_1_alg».proof.Proof.Gen.ReferenceIdeal.Read
import proofs.«168652_j88974542504681_1_alg».proof.Proof.Spec
import proofs.«168652_j88974542504681_1_alg».proof.Proof.LibRealSum
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Read Cert.Lib.RealSum

/-! ## Indices

A layout operation, an operand of a matrix product and a summed axis are read at an index computed from the
result's index; at an index given by its coordinates each of these is the index with the expected coordinates. -/

/-- Row `r` of the left operand of a product, at the contracted position `k`. -/
theorem lidx27 (r : Fin 50000) (j k : Fin 128) : lidx_main_v27 (ix2 r j) k = ix2 r k :=
  funext fun a => by match a with | ⟨0, _⟩ => rfl | ⟨1, _⟩ => rfl
/-- Column `j` of the right operand of a product, at the contracted position `k`. -/
theorem ridx27 (r : Fin 50000) (j k : Fin 128) : ridx_main_v27 (ix2 r j) k = ix2 k j :=
  funext fun a => by match a with | ⟨0, _⟩ => rfl | ⟨1, _⟩ => rfl
/-- The same for the residual product `X·Wres`: row `r` of `X` at `k`. -/
theorem lidx29 (r : Fin 50000) (j k : Fin 128) : lidx_main_v29 (ix2 r j) k = ix2 r k :=
  funext fun a => by match a with | ⟨0, _⟩ => rfl | ⟨1, _⟩ => rfl
/-- Column `j` of `Wres` at `k`. -/
theorem ridx29 (r : Fin 50000) (j k : Fin 128) : ridx_main_v29 (ix2 r j) k = ix2 k j :=
  funext fun a => by match a with | ⟨0, _⟩ => rfl | ⟨1, _⟩ => rfl
/-- A sum over the rows reads column `j` at row `k`. -/
theorem idx32 (j : Fin 128) (k : Fin 50000) : idx_main_v32 (ix1 j) k = ix2 k j :=
  funext fun a => by match a with | ⟨0, _⟩ => rfl | ⟨1, _⟩ => rfl
/-- The sum of squares over the rows reads the same entries. -/
theorem idx39 (j : Fin 128) (k : Fin 50000) : idx_main_v39 (ix1 j) k = ix2 k j :=
  funext fun a => by match a with | ⟨0, _⟩ => rfl | ⟨1, _⟩ => rfl
/-- A per-channel vector spread over the rows (`[128] → [1,128] → [50000,128]`) is read at the channel. -/
theorem idx35 (r : Fin 50000) (j : Fin 128) : idx_main_v35 (idx_main_v36 (ix2 r j)) = ix1 j :=
  funext fun a => by match a with | ⟨0, _⟩ => rfl
/-- The mean, spread a second time for the normalisation. -/
theorem idx42 (r : Fin 50000) (j : Fin 128) : idx_main_v42 (idx_main_v43 (ix2 r j)) = ix1 j :=
  funext fun a => by match a with | ⟨0, _⟩ => rfl
/-- The scale `γ`, spread over the rows. -/
theorem idx45 (r : Fin 50000) (j : Fin 128) : idx_main_v45 (idx_main_v46 (ix2 r j)) = ix1 j :=
  funext fun a => by match a with | ⟨0, _⟩ => rfl
/-- The reciprocal standard deviation, spread over the rows. -/
theorem idx51 (r : Fin 50000) (j : Fin 128) : idx_main_v51 (idx_main_v52 (ix2 r j)) = ix1 j :=
  funext fun a => by match a with | ⟨0, _⟩ => rfl
/-- The shift `β`, spread over the rows. -/
theorem idx54 (r : Fin 50000) (j : Fin 128) : idx_main_v54 (idx_main_v55 (ix2 r j)) = ix1 j :=
  funext fun a => by match a with | ⟨0, _⟩ => rfl

/-! ## The two words -/

/-- The word the programs divide by is the specification's node count. -/
theorem cnt_word : Ideal.ofBits .f32 0x47435000#32 = Cert.Spec.cnt := rfl
/-- The word the programs add to the variance is the specification's stabiliser. -/
theorem eps_word : Ideal.ofBits .f32 0x3727C5AC#32 = Cert.Spec.eps := rfl

/-! ## The activations -/

/-- the activations of the whole array, as the specification's function of agg, X, W, Wres -/
def G (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (r : Fin 50000) (j : Fin 128) : EReal :=
  Cert.Spec.act (Read.val_main_v26 (F := Ideal) x0 x5 x6) x0 x1 x2 r j

/-- The reference's activation array `relu(agg·W) + relu(X·Wres)` at `(r, j)` is the specification's entry. -/
theorem gX_apply (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (r : Fin 50000) (j : Fin 128) :
    Read.val_main_v31 (F := Ideal) x0 x1 x2 x5 x6 (ix2 r j) = G x0 x1 x2 x5 x6 r j := by
  rw [val_main_v31_apply, val_main_v28_apply, val_main_v30_apply, val_main_v27_apply, val_main_v29_apply,
    val_main_call2_v0_apply, val_main_call3_v0_apply, val_main_call2_cst_apply, val_main_call3_cst_apply]
  simp only [lidx27, ridx27, lidx29, ridx29, Ideal.ofBits_def, Ideal.ofBits_zero_f32, Ideal.addf_def, Ideal.maximumf_def]
  rfl

/-- The column sum: `0 + ∑ᵣ g(r,j)`. -/
theorem colsum_apply (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (j : Fin 128) :
    Read.val_main_v32 (F := Ideal) x0 x1 x2 x5 x6 (ix1 j) = ∑ r : Fin 50000, G x0 x1 x2 x5 x6 r j := by
  rw [val_main_v32_apply, val_main_cst_6_apply, Ideal.ofBits_def, Ideal.ofBits_zero_f32, zero_add]
  exact Finset.sum_congr rfl fun k _ => by rw [idx32, gX_apply]

/-- The mean of channel `j`: the column sum divided by the node count. -/
theorem mean_apply (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (j : Fin 128) :
    Read.val_main_v34 (F := Ideal) x0 x1 x2 x5 x6 (ix1 j) = Ideal.div (∑ r : Fin 50000, G x0 x1 x2 x5 x6 r j) Cert.Spec.cnt := by
  rw [val_main_v34_apply, colsum_apply, val_main_v33_apply, val_main_cst_7_apply, Ideal.hostDivf_def, Ideal.ofBits_def, cnt_word]

/-- The centred entry `g(r,j) − mean(j)`, as the variance's sum reads it. -/
theorem centred_apply (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (r : Fin 50000) (j : Fin 128) :
    Read.val_main_v37 (F := Ideal) x0 x1 x2 x5 x6 (ix2 r j)
      = G x0 x1 x2 x5 x6 r j - Ideal.div (∑ r' : Fin 50000, G x0 x1 x2 x5 x6 r' j) Cert.Spec.cnt := by
  rw [val_main_v37_apply, gX_apply, val_main_v36_apply, val_main_v35_apply, idx35, mean_apply, Ideal.subf_def]

/-- The same centred entry, as the normalisation reads it (the program broadcasts the mean a second time). -/
theorem centred_apply' (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (r : Fin 50000) (j : Fin 128) :
    Read.val_main_v44 (F := Ideal) x0 x1 x2 x5 x6 (ix2 r j)
      = G x0 x1 x2 x5 x6 r j - Ideal.div (∑ r' : Fin 50000, G x0 x1 x2 x5 x6 r' j) Cert.Spec.cnt := by
  rw [val_main_v44_apply, gX_apply, val_main_v43_apply, val_main_v42_apply, idx42, mean_apply, Ideal.subf_def]

/-- The reference's variance of channel `j`: the mean of the squared centred entries. -/
theorem var_apply (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal)) (j : Fin 128) :
    Read.val_main_v41 (F := Ideal) x0 x1 x2 x5 x6 (ix1 j)
      = Ideal.div (∑ r : Fin 50000,
            (G x0 x1 x2 x5 x6 r j - Ideal.div (∑ r' : Fin 50000, G x0 x1 x2 x5 x6 r' j) Cert.Spec.cnt)
              * (G x0 x1 x2 x5 x6 r j - Ideal.div (∑ r' : Fin 50000, G x0 x1 x2 x5 x6 r' j) Cert.Spec.cnt))
          Cert.Spec.cnt := by
  rw [val_main_v41_apply, val_main_v39_apply, val_main_cst_8_apply, val_main_v40_apply, val_main_cst_9_apply,
    Ideal.hostDivf_def, Ideal.ofBits_def, Ideal.ofBits_def, Ideal.ofBits_zero_f32, zero_add, cnt_word]
  refine congrArg (fun s => Ideal.div s Cert.Spec.cnt) (Finset.sum_congr rfl fun k _ => ?_)
  rw [idx39, val_main_v38_apply, centred_apply, Ideal.mulf_def]

/-- The reference's result at `(r, j)`, every stage read: `γ·(g − mean)·(var + ε)^(-1/2) + β` with the reference's own variance. -/
theorem reference_read (x0 : (⟨S50000x128, .f32⟩ : BufTy).Contents (Elt Ideal)) (x1 x2 : (⟨S128x128, .f32⟩ : BufTy).Contents (Elt Ideal))
    (x3 x4 : (⟨S128, .f32⟩ : BufTy).Contents (Elt Ideal)) (x5 x6 : (⟨S600000, .i32⟩ : BufTy).Contents (Elt Ideal)) (r : Fin 50000) (j : Fin 128) :
    Read.val_main_v56 (F := Ideal) x0 x1 x2 x3 x4 x5 x6 (ix2 r j)
      = (x3 (ix1 j) * (G x0 x1 x2 x5 x6 r j - Ideal.div (∑ r' : Fin 50000, G x0 x1 x2 x5 x6 r' j) Cert.Spec.cnt))
          * Ideal.rsqrt (Ideal.div (∑ r' : Fin 50000,
              (G x0 x1 x2 x5 x6 r' j - Ideal.div (∑ r'' : Fin 50000, G x0 x1 x2 x5 x6 r'' j) Cert.Spec.cnt)
                * (G x0 x1 x2 x5 x6 r' j - Ideal.div (∑ r'' : Fin 50000, G x0 x1 x2 x5 x6 r'' j) Cert.Spec.cnt))
              Cert.Spec.cnt + Cert.Spec.eps)
        + x4 (ix1 j) := by
  rw [val_main_v56_apply, val_main_v53_apply, val_main_v47_apply, val_main_v46_apply, val_main_v45_apply, idx45,
    centred_apply', val_main_v52_apply, val_main_v51_apply, idx51, val_main_v50_apply, val_main_v49_apply, var_apply,
    val_main_v48_apply, val_main_cst_10_apply, val_main_v55_apply, val_main_v54_apply, idx54,
    Ideal.hostUnary_rsqrt_def, Ideal.addf_def, Ideal.addf_def, Ideal.mulf_def, Ideal.mulf_def, Ideal.ofBits_def, eps_word]

/-! ## Every activation is a real number

On the extended reals the variance law fails at an infinite entry (`⊤ − ⊤`), so it is used on real entries only. The
degrees are sums of ones, clipped below at one, so their reciprocal square roots are real whatever the edge lists
hold; a gather picks entries of a real array and an accumulating scatter adds finitely many of them to zero; products,
finite sums and maxima of reals are real. -/

/-- The word `1.0` denotes the real `1`. -/
theorem one_word : Ideal.ofBits .f32 0x3F800000#32 = ((1 : ℝ) : EReal) := by
  simp [Ideal.ofBits, Ideal.ieee, -EReal.coe_mul]; norm_num

/-- The edge weights, all one, are real. -/
theorem ones_real (e : S600000.Idx) : IsReal (Read.val_main_v0 (F := Ideal) e) := by
  rw [val_main_v0_apply, val_main_cst_apply, Ideal.ofBits_def, one_word]
  exact IsReal.coe 1

/-- The out-degrees (how often a node occurs in `src`) are real: zero plus a finite sum of ones. -/
theorem deg_out_real (x5 : (⟨S600000, .i32⟩ : BufTy).Contents (Elt Ideal)) (i : S50000.Idx) :
    IsReal (Read.val_main_v3 (F := Ideal) x5 i) := by
  unfold val_main_v3
  refine IsReal.host_scatterAdd _ _ _ _ (fun i => ?_) ones_real i
  rw [val_main_v1_apply, val_main_cst_0_apply]
  exact IsReal.ofBits_zero

/-- The in-degrees (how often a node occurs in `dst`) are real. -/
theorem deg_in_real (x6 : (⟨S600000, .i32⟩ : BufTy).Contents (Elt Ideal)) (i : S50000.Idx) :
    IsReal (Read.val_main_v7 (F := Ideal) x6 i) := by
  unfold val_main_v7
  refine IsReal.host_scatterAdd _ _ _ _ (fun i => ?_) ones_real i
  rw [val_main_v5_apply, val_main_cst_2_apply]
  exact IsReal.ofBits_zero

/-- `max(1, deg_out)^(-1/2)` is real: the clipped degree is a real that is at least one. -/
theorem norm_src_real (x5 : (⟨S600000, .i32⟩ : BufTy).Contents (Elt Ideal)) (i : S50000.Idx) :
    IsReal (Read.val_main_v9 (F := Ideal) x5 i) := by
  rw [val_main_v9_apply, val_main_v4_apply, val_main_call0_v1_apply, val_main_call0_v0_apply, val_main_cst_1_apply,
    Ideal.maximumf_def, max_comm, ← Ideal.maximumf_def]
  exact IsReal.host_rsqrt_max (deg_out_real x5 i) one_word one_pos

/-- `max(1, deg_in)^(-1/2)` is real. -/
theorem norm_dst_real (x6 : (⟨S600000, .i32⟩ : BufTy).Contents (Elt Ideal)) (i : S50000.Idx) :
    IsReal (Read.val_main_v11 (F := Ideal) x6 i) := by
  rw [val_main_v11_apply, val_main_v8_apply, val_main_call1_v1_apply, val_main_call1_v0_apply, val_main_cst_3_apply,
    Ideal.maximumf_def, max_comm, ← Ideal.maximumf_def]
  exact IsReal.host_rsqrt_max (deg_in_real x6 i) one_word one_pos

/-- The features scaled by the source normalisation, `X · norm_src`, are real. -/
theorem scaled_real (x0 : (⟨S50000x128, .f32⟩ : BufTy).Contents (Elt Ideal)) (x5 : (⟨S600000, .i32⟩ : BufTy).Contents (Elt Ideal))
    (h0 : ∀ i, IsReal (x0 i)) (i : S50000x128.Idx) : IsReal (Read.val_main_v14 (F := Ideal) x0 x5 i) := by
  rw [val_main_v14_apply, val_main_v13_apply, val_main_v10_apply]
  exact IsReal.fmul (h0 i) (norm_src_real x5 _)

/-- The rows gathered along the edges are real, wherever `src` points. -/
theorem gathered_real (x0 : (⟨S50000x128, .f32⟩ : BufTy).Contents (Elt Ideal)) (x5 : (⟨S600000, .i32⟩ : BufTy).Contents (Elt Ideal))
    (h0 : ∀ i, IsReal (x0 i)) (e : S600000x128.Idx) : IsReal (Read.val_main_v21 (F := Ideal) x0 x5 e) := by
  unfold val_main_v21
  exact IsReal.host_gather _ _ _ (scaled_real x0 x5 h0) e

/-- The rows added up at their destinations are real, wherever `dst` points. -/
theorem scattered_real (x0 : (⟨S50000x128, .f32⟩ : BufTy).Contents (Elt Ideal)) (x5 x6 : (⟨S600000, .i32⟩ : BufTy).Contents (Elt Ideal))
    (h0 : ∀ i, IsReal (x0 i)) (i : S50000x128.Idx) : IsReal (Read.val_main_v24 (F := Ideal) x0 x5 x6 i) := by
  unfold val_main_v24
  refine IsReal.host_scatterAdd _ _ _ _ (fun i => ?_) (gathered_real x0 x5 h0) i
  rw [val_main_v22_apply, val_main_cst_5_apply]
  exact IsReal.ofBits_zero

/-- The aggregated features `D^(-1/2) A D^(-1/2) X` are real when `X` is, for any integer edge lists. -/
theorem agg_real (x0 : (⟨S50000x128, .f32⟩ : BufTy).Contents (Elt Ideal)) (x5 x6 : (⟨S600000, .i32⟩ : BufTy).Contents (Elt Ideal))
    (h0 : ∀ i, IsReal (x0 i)) : ∀ i, IsReal (Read.val_main_v26 (F := Ideal) x0 x5 x6 i) := fun i => by
  rw [val_main_v26_apply, val_main_v25_apply, val_main_v12_apply]
  exact IsReal.fmul (scattered_real x0 x5 x6 h0 i) (norm_dst_real x6 _)

/-- Every activation is real when `X`, `W`, `Wres` are: each is two maxima with zero of finite sums of products of reals, added. -/
theorem G_real (x0 : (⟨S50000x128, .f32⟩ : BufTy).Contents (Elt Ideal)) (x1 x2 : (⟨S128x128, .f32⟩ : BufTy).Contents (Elt Ideal))
    (x5 x6 : (⟨S600000, .i32⟩ : BufTy).Contents (Elt Ideal))
    (h0 : ∀ i, IsReal (x0 i)) (h1 : ∀ i, IsReal (x1 i)) (h2 : ∀ i, IsReal (x2 i)) :
    ∀ r j, IsReal (G x0 x1 x2 x5 x6 r j) := fun r j =>
  ((IsReal.sum _ _ fun k _ => (agg_real x0 x5 x6 h0 (ix2 r k)).mul (h1 (ix2 k j))).max IsReal.zero).add
    ((IsReal.sum _ _ fun k _ => (h0 (ix2 r k)).mul (h2 (ix2 k j))).max IsReal.zero)

/-! ## The variance law -/

/-- The node count's word denotes the real `50000`. -/
theorem cnt_eq : Cert.Spec.cnt = ((50000 : ℝ) : EReal) := by
  unfold Cert.Spec.cnt
  simp [Ideal.ofBits, Ideal.ieee, -EReal.coe_mul]; norm_num

/-- Over the reals: the mean of the squared deviations from the mean is the mean of the squares minus the squared
    mean, for a family indexed by a finite type with `n` elements. A division by `n` is written as the product with
    `1/n`, the form a division by a nonzero real takes on the extended reals. -/
theorem var_real {ι : Type*} [Fintype ι] (g : ι → ℝ) (n : ℝ) (hcard : (Fintype.card ι : ℝ) = n) (hn : n ≠ 0) :
    (∑ r, (g r - (∑ r', g r') * (1 / n)) * (g r - (∑ r', g r') * (1 / n))) * (1 / n)
      = (∑ r, g r * g r) * (1 / n) - ((∑ r', g r') * (1 / n)) * ((∑ r', g r') * (1 / n)) := by
  set s : ℝ := ∑ r', g r' with hs
  set m : ℝ := s * (1 / n) with hm
  -- expand each square, then add up: the cross term sums to `2·m·s`, the constant term to `n·m²`
  have expand : ∑ r, (g r - m) * (g r - m) = ∑ r, g r * g r - 2 * m * s + n * (m * m) := by
    have : ∀ r, (g r - m) * (g r - m) = g r * g r - 2 * m * g r + m * m := fun r => by ring
    simp only [this, Finset.sum_add_distrib, Finset.sum_sub_distrib, ← Finset.mul_sum, Finset.sum_const,
      Finset.card_univ, nsmul_eq_mul, hcard, ← hs]
    ring
  rw [expand, hm]
  field_simp
  ring

/-- The variance law on a real column, coerced to the extended reals: `(∑ᵣ (g r − s/n)²)/n = (∑ᵣ (g r)²)/n − (s/n)²` with
    `s = ∑ᵣ g r` and `n` the real the word `0x47435000` denotes, 50000, which is also the number of rows. -/
theorem var_law (g : Fin 50000 → ℝ) :
    Ideal.div (∑ r : Fin 50000, ((g r : EReal) - Ideal.div (∑ r' : Fin 50000, (g r' : EReal)) Cert.Spec.cnt)
        * ((g r : EReal) - Ideal.div (∑ r' : Fin 50000, (g r' : EReal)) Cert.Spec.cnt)) Cert.Spec.cnt
      = Ideal.div (∑ r : Fin 50000, (g r : EReal) * (g r : EReal)) Cert.Spec.cnt
          - Ideal.div (∑ r' : Fin 50000, (g r' : EReal)) Cert.Spec.cnt
              * Ideal.div (∑ r' : Fin 50000, (g r' : EReal)) Cert.Spec.cnt := by
  -- a division by the real 50000 is a product with the real 1/50000, so every term is the coercion of a real term
  rw [cnt_eq]
  simp only [Ideal.div_coe (show (50000 : ℝ) ≠ 0 by norm_num), ← coe_sum, ← EReal.coe_mul, ← EReal.coe_sub]
  exact congrArg _ (var_real g 50000 (by simp) (by norm_num))

/-! ## The reference's result is the specification's -/

/-- The reference's entry `(r, j)` is the specification's batch-normalised entry of the column sum `s`, the column sum
    of squares `q`, `γ(j)`, `β(j)` and the activation `g(r,j)`: everything outside the variance is the same term on both
    sides, and the two variances agree by the law on the real numbers the activations of column `j` are. -/
theorem reference_apply (x0 : (⟨S50000x128, .f32⟩ : BufTy).Contents (Elt Ideal)) (x1 x2 : (⟨S128x128, .f32⟩ : BufTy).Contents (Elt Ideal))
    (x3 x4 : (⟨S128, .f32⟩ : BufTy).Contents (Elt Ideal)) (x5 x6 : (⟨S600000, .i32⟩ : BufTy).Contents (Elt Ideal))
    (h0 : ∀ i, IsReal (x0 i)) (h1 : ∀ i, IsReal (x1 i)) (h2 : ∀ i, IsReal (x2 i)) (r : Fin 50000) (j : Fin 128) :
    Read.val_main_v56 (F := Ideal) x0 x1 x2 x3 x4 x5 x6 (ix2 r j)
      = Cert.Spec.bn (∑ r' : Fin 50000, G x0 x1 x2 x5 x6 r' j) (∑ r' : Fin 50000, G x0 x1 x2 x5 x6 r' j * G x0 x1 x2 x5 x6 r' j)
          (x3 (ix1 j)) (x4 (ix1 j)) (G x0 x1 x2 x5 x6 r j) := by
  rw [reference_read]
  unfold Cert.Spec.bn
  -- name the real numbers the activations of column j are, and apply the law to them
  choose g hg using fun r' => G_real x0 x1 x2 x5 x6 h0 h1 h2 r' j
  simp only [hg]
  rw [var_law g]

end Cert.RefValue

end
-- ==== Proof.FiniteInputs.lean ====
/-
  From the precondition "every float input is finite" to "every entry of X, W, Wres is a real number".

  The precondition is printed as a program: for each of the five float arguments it computes `all(|x| < +∞)` — the
  absolute value, a comparison with the word `0x7F800000` spread over the array, and a reduction of the resulting
  bits by `and` from `1` — and returns the `and` of the five results. At the ideal values a float is an extended
  real and the word denotes `⊤`. If the result is `1` then each of the five reductions is `1`, so each compared bit is
  `1`, so `max x (−x) < ⊤` at every entry `x`; that excludes `x = ⊤` and `x = ⊥`, and what is left of the extended reals
  are the reals.
-/
import proofs.«168652_j88974542504681_1_alg».proof.Pre_finite_inputs
import proofs.«168652_j88974542504681_1_alg».proof.Proof.Gen.Pre_finite_inputs
import proofs.«168652_j88974542504681_1_alg».proof.Proof.LibRealSum
import Idealize.ShloMosaic.Lib.ReduceAll
import Idealize.ShloMosaic.Lib.ValueIdx

noncomputable section

namespace Cert.FiniteInputs

open Idealize.ShloMosaic Idealize.ShloMosaic.ValueIdx Cert.Pre_finite_inputs Cert.Lib.RealSum

/-- The scalar shape has one index. -/
instance : Subsingleton S_.Idx := ⟨fun _ _ => funext fun d => d.elim0⟩

/-- The word `0x7F800000` denotes `+∞`. -/
theorem inf_word : Ideal.ofBits .f32 0x7F800000#32 = ⊤ := by
  simp [Ideal.ofBits, Ideal.ieee]

/-- An ordered "less than" that answers `1` is the strict order of the extended reals. -/
theorem lt_of_cmp_olt {a b : EReal} (h : Ideal.cmp .olt a b = 1#1) : a < b := by
  by_contra hlt
  simp [Ideal.cmp, hlt] at h

/-- An extended real whose absolute value `max x (−x)` is strictly below `⊤` is a real: `⊤` fails the bound itself,
    `⊥` fails it through `−⊥ = ⊤`. -/
theorem isReal_of_abs_lt_top {x : EReal} (h : max x (-x) < ⊤) : IsReal x := by
  induction x using EReal.rec with
  | bot => simp at h
  | coe r => exact IsReal.coe r
  | top => simp at h

/-- One `all(|x| < +∞)` that is `1`: every entry of `x` is real. The reduction by `and` into the one scalar gives the
    compared bit at each index; the bit says `max (x i) (−x i) < ⊤`. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ix0 = 1#1) (i : s.Idx) : IsReal (x i) := by
  have hi := Host.reduce_andi_all _ _ hr hu ix0 e i
  have hlt : Ideal.cmp .olt (max (x i) (-(x i))) (Ideal.ofBits .f32 0x7F800000#32) = 1#1 := hi
  rw [inf_word] at hlt
  exact isReal_of_abs_lt_top (lt_of_cmp_olt hlt)

/-- The precondition decoded: if the printed predicate answers `1` at the ideal values, the three arrays the variance
    law depends on — `X`, `W`, `Wres` — have real entries. (The same holds of `γ` and `β`; nothing needs it.) -/
theorem real_of_finite [Cert.Pre_finite_inputs.Facts] (x0 : FVec Ideal Cert.Pre_finite_inputs.S50000x128 .f32)
    (x1 x2 : FVec Ideal Cert.Pre_finite_inputs.S128x128 .f32) (x3 x4 : FVec Ideal Cert.Pre_finite_inputs.S128 .f32)
    (x5 x6 : IVec Cert.Pre_finite_inputs.S600000 32)
    (h : Cert.Pre_finite_inputs.fn (F := Ideal) x0 x1 x2 x3 x4 x5 x6 = (fun _ => 1#1)) :
    (∀ i, IsReal (x0 i)) ∧ (∀ i, IsReal (x1 i)) ∧ (∀ i, IsReal (x2 i)) := by
  -- the result at the scalar's one index, as the `and` of the five reductions
  have e := congrFun h ix0
  dsimp only [Cert.Pre_finite_inputs.fn, Cert.Pre_finite_inputs.fn_part1, andi] at e
  simp only [IntOp.andi_eq_one] at e
  obtain ⟨⟨⟨⟨e0, e1⟩, e2⟩, -⟩, -⟩ := e
  exact ⟨all_real x0 _ _ _ e0, all_real x1 _ _ _ e1, all_real x2 _ _ _ e2⟩

end Cert.FiniteInputs

end
-- ==== Proof.HostAgg.lean ====
/-
  The host operations the kernel program runs before its two regions compute the reference's aggregated features.

  Before its regions the kernel program runs the same 38 operations the reference begins with, in five stretches: the
  out-degrees (a scatter of ones at `src` into zeros) and their clip below at one; the in-degrees (the same at `dst`) and
  their clip; then the reciprocal square roots, the features scaled by the source normalisation, the wrap of negative
  indices, the gather of rows along the edges, the scatter-add of the gathered rows at `dst` into zeros, and the product
  with the destination normalisation. Folding the five stretches over ANY starting contents `W` leaves in the last
  buffer the function of `W`'s `X`, `src`, `dst` that the reference's stage `val_main_v26` names,

      agg = D_in^(-1/2) · scatterAdd_dst (gather_src (X · D_out^(-1/2))) .

  Reading the fold back gives each buffer as its operation applied to the buffers it read, down to `W` at the three
  arguments. Each clip is an outlined function whose three operations act on typed references: contents are carried to
  the buffer's own type and back along an equation between the two types. Where a carry meets its inverse they cancel,
  for any reference (`ofBuf_toBuf`); at the two ends of a clip — where a plain operation wrote the buffer the clip
  reads, or reads the buffer the clip wrote — the equation holds by computation and the carry is the identity (the six
  lemmas after it). With the carries gone the two sides are the same term, operation for operation.
-/
import proofs.«168652_j88974542504681_1_alg».proof.Proof.Gen.KernelIdeal.Launch
import proofs.«168652_j88974542504681_1_alg».proof.Proof.Gen.ReferenceIdeal.Read
import Idealize.ShloMosaic.Lib.StableHlo.Run

noncomputable section

namespace Cert.HostAgg

open Cert.KernelIdeal Cert.KernelIdeal.Gen Idealize.ShloMosaic Idealize.ShloMosaic.TcCoe Idealize.ShloMosaic.StableHlo

/-! ## Carrying contents between a value's type and its buffer's -/

/-- Contents carried to a buffer's own type and back are the contents: the two carries are along an equation and its
    inverse, and along the reflexive equation both are the identity. -/
theorem ofBuf_toBuf {Val : EltTy → Type} {T : BufTy} (x : TRef sig T) (v : T.Contents Val) : x.ofBuf (x.toBuf v) = v := by
  obtain ⟨r, h, _, _⟩ := x
  subst h
  rfl

/-- The clipped out-degrees' buffer holds `[50000]` floats: the carry into it is the identity. -/
theorem toBuf_v4 (v : (⟨S50000, .f32⟩ : BufTy).Contents (Elt Ideal)) :
    (TRef.of main_v4 : TRef sig ⟨S50000, .f32⟩).toBuf v = v := rfl
/-- The out-degrees' buffer holds `[50000]` floats: the carry out of it is the identity. -/
theorem ofBuf_v3 (v : (⟨S50000, .f32⟩ : BufTy).Contents (Elt Ideal)) :
    (TRef.of main_v3 : TRef sig ⟨S50000, .f32⟩).ofBuf v = v := rfl
/-- The first clip's bound is a scalar float. -/
theorem ofBuf_cst_1 (v : (⟨S_, .f32⟩ : BufTy).Contents (Elt Ideal)) :
    (TRef.of main_cst_1 : TRef sig ⟨S_, .f32⟩).ofBuf v = v := rfl
/-- The clipped in-degrees' buffer holds `[50000]` floats. -/
theorem toBuf_v8 (v : (⟨S50000, .f32⟩ : BufTy).Contents (Elt Ideal)) :
    (TRef.of main_v8 : TRef sig ⟨S50000, .f32⟩).toBuf v = v := rfl
/-- The in-degrees' buffer holds `[50000]` floats. -/
theorem ofBuf_v7 (v : (⟨S50000, .f32⟩ : BufTy).Contents (Elt Ideal)) :
    (TRef.of main_v7 : TRef sig ⟨S50000, .f32⟩).ofBuf v = v := rfl
/-- The second clip's bound is a scalar float. -/
theorem ofBuf_cst_3 (v : (⟨S_, .f32⟩ : BufTy).Contents (Elt Ideal)) :
    (TRef.of main_cst_3 : TRef sig ⟨S_, .f32⟩).ofBuf v = v := rfl

/-! ## The aggregation -/

/-- After the five stretches of host operations, from any starting contents `W`, the aggregation's buffer holds the
    reference's aggregated features of `W`'s `X`, `src` and `dst`. -/
theorem agg_eq (W : Valuation τ sig (Elt Ideal)) :
    (StableHlo.after hostOps0_4 (StableHlo.after hostOps0_3 (StableHlo.after hostOps0_2 (StableHlo.after hostOps0_1 (StableHlo.after hostOps0 W))))
        (Proc.devRef .tc main_v26) : S50000x128.Idx → EReal)
      = Cert.ReferenceIdeal.Read.val_main_v26 (F := Ideal) (W (Proc.devRef .tc main_arg0)) (W (Proc.devRef .tc main_arg5)) (W (Proc.devRef .tc main_arg6)) := by
  -- each buffer as its operation applied to the buffers it read, down to `W` at `X`, `src`, `dst`
  after_results_simp
  -- the clips' carries cancel or are the identity
  simp only [ofBuf_toBuf, toBuf_v4, ofBuf_v3, ofBuf_cst_1, toBuf_v8, ofBuf_v7, ofBuf_cst_3]
  -- what is left is the reference's chain of stages, unfolded
  rfl

end Cert.HostAgg

end
-- ==== Proof.Bridge.lean ====
/-
  From the kernel program's run to its result as a formula.

  The run of the kernel program names, at every boundary between two of its seven segments, what each buffer holds. Read
  backwards from the end: the result array is what the second pallas_call's ten tiles wrote, the batch-normalised
  activations; its inputs are the two arrays the first pallas_call wrote, the activations and their column statistics;
  the first pallas_call's inputs are the node features and weights as launched and the aggregated features the host
  operations computed, which are the same function of the launch memory that the reference program computes.
-/
import proofs.«168652_j88974542504681_1_alg».proof.Proof.Run
import proofs.«168652_j88974542504681_1_alg».proof.Proof.Region0Body
import proofs.«168652_j88974542504681_1_alg».proof.Proof.KernelValue
import proofs.«168652_j88974542504681_1_alg».proof.Proof.RefValue
import proofs.«168652_j88974542504681_1_alg».proof.Proof.FiniteInputs
import proofs.«168652_j88974542504681_1_alg».proof.Proof.Gen.ReferenceIdeal.Read
import proofs.«168652_j88974542504681_1_alg».proof.Proof.HostAgg

noncomputable section

open scoped BigOperators

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The activations of node `r` in channel `j`, as a function of the launch memory of core `c`: the specification's
    `act` of the aggregated features, the node features and the two weight matrices. -/
def acts (c : Dev nD) (r : Fin 50000) (j : Fin 128) : EReal :=
  Cert.RefValue.G (m ((c : Thread nD τ).loc main_arg0)) (m ((c : Thread nD τ).loc main_arg1)) (m ((c : Thread nD τ).loc main_arg2))
    (m ((c : Thread nD τ).loc main_arg5)) (m ((c : Thread nD τ).loc main_arg6)) r j

/-- THE KERNEL'S RESULT, index by index. After the host operations and the two pallas_calls, the result array at
    `(r, j)` is the batch-normalised activation: the second pallas_call normalises the first one's activations by the
    first one's statistics, and those are the activations' column sums and column sums of squares over all ten tiles. -/
theorem kernel_value (c : Dev nD) (r : Fin 50000) (j : Fin 128) :
    (Hand.W7 m ρ c (Proc.devRef .tc main_v28) : S50000x128.Idx → EReal) (ix2 r j)
      = Cert.Spec.bn (∑ r' : Fin 50000, acts m c r' j) (∑ r' : Fin 50000, acts m c r' j * acts m c r' j)
          ((m ((c : Thread nD τ).loc main_arg3) : S128.Idx → EReal) (ix1 j))
          ((m ((c : Thread nD τ).loc main_arg4) : S128.Idx → EReal) (ix1 j)) (acts m c r j) := by
  have h28 : Hand.W7 m ρ c (Proc.devRef .tc main_v28) = (Hand.dat1 (Hand.V6 m ρ) c).arrAt 4 cfg1.N := Hand.W7_arr m ρ c 4
  have e0 : Hand.V6 m ρ c main_v27_0 = (Hand.dat0 (Hand.V5 m ρ) c).arrAt 4 cfg0.N := Hand.W6_arr m ρ c 4
  have e1 : Hand.V6 m ρ c main_v27_1 = (Hand.dat0 (Hand.V5 m ρ) c).arrAt 5 cfg0.N := Hand.W6_arr m ρ c 5
  have e3 : Hand.V6 m ρ c main_arg3 = m ((c : Thread nD τ).loc main_arg3) :=
    (Hand.W6_of_ne m ρ c main_arg3 (by decide)).trans (Hand.W5_of_host m ρ c main_arg3 (by decide) (by decide) (by decide) (by decide) (by decide))
  have e4 : Hand.V6 m ρ c main_arg4 = m ((c : Thread nD τ).loc main_arg4) :=
    (Hand.W6_of_ne m ρ c main_arg4 (by decide)).trans (Hand.W5_of_host m ρ c main_arg4 (by decide) (by decide) (by decide) (by decide) (by decide))
  have a0 : Hand.V5 m ρ c main_arg0 = m ((c : Thread nD τ).loc main_arg0) :=
    Hand.W5_of_host m ρ c main_arg0 (by decide) (by decide) (by decide) (by decide) (by decide)
  have a1 : Hand.V5 m ρ c main_arg1 = m ((c : Thread nD τ).loc main_arg1) :=
    Hand.W5_of_host m ρ c main_arg1 (by decide) (by decide) (by decide) (by decide) (by decide)
  have a2 : Hand.V5 m ρ c main_arg2 = m ((c : Thread nD τ).loc main_arg2) :=
    Hand.W5_of_host m ρ c main_arg2 (by decide) (by decide) (by decide) (by decide) (by decide)
  have a26 : (Hand.V5 m ρ c main_v26 : S50000x128.Idx → EReal)
      = Cert.ReferenceIdeal.Read.val_main_v26 (F := Ideal) (m ((c : Thread nD τ).loc main_arg0)) (m ((c : Thread nD τ).loc main_arg5)) (m ((c : Thread nD τ).loc main_arg6)) :=
    Cert.HostAgg.agg_eq (Hand.W0 m ρ c)
  rw [h28, KernelValue.out_array (Hand.V6 m ρ) c r j, e0, e1, e3, e4, KernelValue.acts_array (Hand.V5 m ρ) c r j,
    KernelValue.stats_array_sum (Hand.V5 m ρ) c j, KernelValue.stats_array_sq (Hand.V5 m ρ) c j, a26, a0, a1, a2]
  rfl

end Cert.Bridge

end
-- ==== Proof.lean ====
/-
  The certificate's claims, assembled.

  The kernel program is a line of host operations (degrees by two scatter-adds of ones, their reciprocal square roots, a
  gather of rows and a scatter-add: the normalised aggregation of the node features) followed by two pallas_calls: the
  first computes, tile by tile, the activations `relu(agg·W) + relu(X·Wres)` and accumulates their column sums and column
  sums of squares; the second batch-normalises the activations with the mean `s/n` and the variance `q/n − (s/n)²`.
  The reference computes the same aggregation and activations on the host and normalises with the variance
  `∑(g − s/n)²/n`. On real numbers the two variances are one; the activations are real because the inputs are finite,
  whatever the edge lists are (an out-of-range scatter index is dropped, a gather index is clamped, a degree is clipped
  below at one before its reciprocal square root).

  Each program's frame is its run read at the argument arrays; the run of the kernel program is the composition of its
  seven segments (five stretches of host operations and the two pallas_calls), stated at any float instance and used at the
  word-level instance for the program as printed and at the ideal one for its idealization.
-/
import proofs.«168652_j88974542504681_1_alg».proof.Defs
import proofs.«168652_j88974542504681_1_alg».proof.Proof.Gen.Kernel
import proofs.«168652_j88974542504681_1_alg».proof.Proof.Gen.KernelIdeal
import proofs.«168652_j88974542504681_1_alg».proof.Proof.Gen.ReferenceIdeal
import proofs.«168652_j88974542504681_1_alg».proof.Proof.Gen.ReferenceIdeal.Run
import proofs.«168652_j88974542504681_1_alg».proof.Proof.Gen.ReferenceIdeal.Read
import proofs.«168652_j88974542504681_1_alg».proof.Proof.Gen.Pre_finite_inputs
import proofs.«168652_j88974542504681_1_alg».proof.Proof.Bits.Region0Body
import proofs.«168652_j88974542504681_1_alg».proof.Proof.Bits.Run
import proofs.«168652_j88974542504681_1_alg».proof.Proof.Region0Body
import proofs.«168652_j88974542504681_1_alg».proof.Proof.Run
import proofs.«168652_j88974542504681_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The program as printed runs to the end and leaves its seven argument arrays as launched: its run, read at them. -/
theorem frame_kernel : Cert.frame_Kernel := fun m ρ _ =>
  (θ_run (Cert.Kernel.defs (F := Bits)) _ _).mono
    (fun r h c => ⟨(h c _ (Cert.Kernel.Hand.mem_uc Cert.Kernel.main_arg0 (by decide))).trans (Cert.Kernel.Hand.W7_main_arg0 m ρ c),
      (h c _ (Cert.Kernel.Hand.mem_uc Cert.Kernel.main_arg1 (by decide))).trans (Cert.Kernel.Hand.W7_main_arg1 m ρ c),
      (h c _ (Cert.Kernel.Hand.mem_uc Cert.Kernel.main_arg2 (by decide))).trans (Cert.Kernel.Hand.W7_main_arg2 m ρ c),
      (h c _ (Cert.Kernel.Hand.mem_uc Cert.Kernel.main_arg3 (by decide))).trans (Cert.Kernel.Hand.W7_main_arg3 m ρ c),
      (h c _ (Cert.Kernel.Hand.mem_uc Cert.Kernel.main_arg4 (by decide))).trans (Cert.Kernel.Hand.W7_main_arg4 m ρ c),
      (h c _ (Cert.Kernel.Hand.mem_uc Cert.Kernel.main_arg5 (by decide))).trans (Cert.Kernel.Hand.W7_main_arg5 m ρ c),
      (h c _ (Cert.Kernel.Hand.mem_uc Cert.Kernel.main_arg6 (by decide))).trans (Cert.Kernel.Hand.W7_main_arg6 m ρ c)⟩)
    (Cert.Kernel.Hand.run_all (F := Bits) m ρ (fun V c => Cert.Kernel.Hand.body_obligation0 V c) (fun V c => Cert.Kernel.Hand.hin0 V c) (fun V c => Cert.Kernel.Hand.hout0 V c))

/-- The same of its idealization. -/
theorem frame_kernelIdeal : Cert.frame_KernelIdeal := fun m ρ _ =>
  (θ_run (Cert.KernelIdeal.defs (F := Ideal)) _ _).mono
    (fun r h c => ⟨(h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c)⟩)
    (Cert.KernelIdeal.Hand.run_all (F := Ideal) m ρ (fun V c => Cert.KernelIdeal.Hand.body_obligation0 V c) (fun V c => Cert.KernelIdeal.Hand.hin0 V c) (fun V c => Cert.KernelIdeal.Hand.hout0 V c))

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the two idealized programs end with equal results: the kernel's at the
    batch-normalised activations computed from its own statistics (`Cert.Bridge.kernel_value`), the reference's at the same
    expression by the variance law on real activations (`Cert.RefValue.reference_apply`, the inputs real because finite). -/
theorem algebraic : Cert.algebraic_KernelIdeal_ReferenceIdeal := by
  intro m ρ m' ρ' hpre hagree
  refine ⟨fun c => Cert.KernelIdeal.Hand.W7 m ρ c (Proc.devRef .tc Cert.KernelIdeal.main_v28), ?_, ?_⟩
  · exact (θ_run (Cert.KernelIdeal.defs (F := Ideal)) _ _).mono
      (fun r h c => ⟨h c _ (Cert.KernelIdeal.Hand.mem_uc Cert.KernelIdeal.main_v28 (by decide)),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c)⟩)
      (Cert.KernelIdeal.Hand.run_all (F := Ideal) m ρ (fun V c => Cert.KernelIdeal.Hand.body_obligation0 V c) (fun V c => Cert.KernelIdeal.Hand.hin0 V c) (fun V c => Cert.KernelIdeal.Hand.hout0 V c))
  · refine (θ_run Cert.ReferenceIdeal.defs _ _).mono (fun r h c => ⟨(h c).1.trans ?_, (h c).2⟩)
      (Cert.ReferenceIdeal.Value.run (F := Ideal) m' ρ')
    obtain ⟨h0, h1, h2⟩ := Cert.FiniteInputs.real_of_finite _ _ _ _ _ _ _ (hpre c)
    rw [Cert.ReferenceIdeal.Read.val_main_v56_eq m' c, (hagree c).1, (hagree c).2.1, (hagree c).2.2.1, (hagree c).2.2.2.1,
      (hagree c).2.2.2.2.1, (hagree c).2.2.2.2.2.1, (hagree c).2.2.2.2.2.2]
    funext i
    obtain ⟨r', j, rfl⟩ : ∃ (r' : Fin 50000) (j : Fin 128), i = ix2 r' j := ⟨i 0, i 1, eq_ix2 i⟩
    rw [Cert.RefValue.reference_apply _ _ _ _ _ _ _ h0 h1 h2 r' j]
    exact (Cert.Bridge.kernel_value m ρ c r' j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
